-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S3x6x2048 : Shape := ⟨3, ![3, 6, 2048]⟩
abbrev S2048x3 : Shape := ⟨2, ![2048, 3]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S3x6x2048 : S_.BroadcastsInDim S3x6x2048 (![] : Fin 0 → Fin S3x6x2048.rank)
  reducesTo_S3x6x2048_S_d0_1_2 : S3x6x2048.ReducesTo [0, 1, 2] S_
  bcast_S_S2048x3 : S_.BroadcastsInDim S2048x3 (![] : Fin 0 → Fin S2048x3.rank)
  reducesTo_S2048x3_S_d0_1 : S2048x3.ReducesTo [0, 1] S_

variable [Facts]

def fn_part1 {F : FTy → Type} [FloatOps F] (main_arg4 : FVec F S2048x3 .f32) (main_v13 : IVec S_ 1) (main_v16 : IVec S3x6x2048 1) : IVec S_ 1 :=
  let main_c_5 : IVec S_ 1 := constantI S_ 1 1#1
  let main_v17 : IVec S_ 1 := (fun x v => Host.reduce IntOp.andi x v reducesTo_S3x6x2048_S_d0_1_2 h_S_) main_v16 main_c_5
  let main_v18 : IVec S_ 1 := andi main_v13 main_v17
  let main_v19 : FVec F S2048x3 .f32 := Host.absf main_arg4
  let main_cst_6 : FVec F S_ .f32 := constant S_ .f32 0x7F800000#32
  let main_v20 : FVec F S2048x3 .f32 := broadcastInDim S2048x3 ![] bcast_S_S2048x3 main_cst_6
  let main_v21 : IVec S2048x3 1 := cmpf .olt main_v19 main_v20
  let main_c_7 : IVec S_ 1 := constantI S_ 1 1#1
  let main_v22 : IVec S_ 1 := (fun x v => Host.reduce IntOp.andi x v reducesTo_S2048x3_S_d0_1 h_S_) main_v21 main_c_7
  let main_v23 : IVec S_ 1 := andi main_v18 main_v22
  main_v23

def fn {F : FTy → Type} [FloatOps F] (main_arg0 : FVec F S4x2048x2048 .f32) (main_arg1 : FVec F S2048x2048 .f32) (main_arg2 : FVec F S2048x2048 .f32) (main_arg3 : FVec F S3x6x2048 .f32) (main_arg4 : FVec F S2048x3 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S3x6x2048 .f32 := Host.absf main_arg3
  let main_cst_4 : FVec F S_ .f32 := constant S_ .f32 0x7F800000#32
  let main_v15 : FVec F S3x6x2048 .f32 := broadcastInDim S3x6x2048 ![] bcast_S_S3x6x2048 main_cst_4
  let main_v16 : IVec S3x6x2048 1 := cmpf .olt main_v14 main_v15
  fn_part1 (F := F) main_arg4 main_v13 main_v16
-- ==== Kernel.lean ====
abbrev S4x2048x2048 : Shape := ⟨3, ![4, 2048, 2048]⟩
abbrev S2048x2048 : Shape := ⟨2, ![2048, 2048]⟩
abbrev S3x6x2048 : Shape := ⟨3, ![3, 6, 2048]⟩
abbrev S2048x3 : Shape := ⟨2, ![2048, 3]⟩
abbrev S8192x2048 : Shape := ⟨2, ![8192, 2048]⟩
abbrev S2048x4096 : Shape := ⟨2, ![2048, 4096]⟩
abbrev S6x3x2048 : Shape := ⟨3, ![6, 3, 2048]⟩
abbrev S18x2048 : Shape := ⟨2, ![18, 2048]⟩
abbrev S2048x18 : Shape := ⟨2, ![2048, 18]⟩
abbrev S3x2048 : Shape := ⟨2, ![3, 2048]⟩
abbrev S256x2048 : Shape := ⟨2, ![256, 2048]⟩
abbrev S256x4096 : Shape := ⟨2, ![256, 4096]⟩
abbrev S256x18 : Shape := ⟨2, ![256, 18]⟩
abbrev S256x3 : Shape := ⟨2, ![256, 3]⟩
abbrev S256x1 : Shape := ⟨2, ![256, 1]⟩
abbrev S1x2048 : Shape := ⟨2, ![1, 2048]⟩

abbrev nBuf : Space → Nat
  | .hbm => 17
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S3x6x2048, .f32⟩
  | .hbm, ⟨4, _⟩ => ⟨S2048x3, .f32⟩
  | .hbm, ⟨5, _⟩ => ⟨S8192x2048, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S2048x4096, .bf16⟩
  | .hbm, ⟨11, _⟩ => ⟨S6x3x2048, .f32⟩
  | .hbm, ⟨12, _⟩ => ⟨S18x2048, .f32⟩
  | .hbm, ⟨13, _⟩ => ⟨S2048x18, .f32⟩
  | .hbm, ⟨14, _⟩ => ⟨S3x2048, .f32⟩
  | .hbm, ⟨15, _⟩ => ⟨S8192x2048, .f32⟩
  | .hbm, ⟨16, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x4096, .bf16⟩
  | .local _ .vmem, ⟨3, _⟩ => ⟨S2048x18, .f32⟩
  | .local _ .vmem, ⟨4, _⟩ => ⟨S3x2048, .f32⟩
  | .local _ .vmem, ⟨5, _⟩ => ⟨S256x2048, .f32⟩
  | .local _ .vmem, ⟨6, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x2048_S8192x2048 : S4x2048x2048.ShapeCasts S8192x2048
  transposes_S2048x2048_S2048x2048_1_0 : S2048x2048.Transposes [1, 0] S2048x2048
  bitsLt_bf16_f32 : FTy.bits .bf16 < FTy.bits .f32
  concatenates_S2048x2048_S2048x2048_S2048x4096_d1 : Shape.Concatenates [S2048x2048, S2048x2048] S2048x4096 1
  transposes_S3x6x2048_S6x3x2048_1_0_2 : S3x6x2048.Transposes [1, 0, 2] S6x3x2048
  shapeCasts_S6x3x2048_S18x2048 : S6x3x2048.ShapeCasts S18x2048
  transposes_S18x2048_S2048x18_1_0 : S18x2048.Transposes [1, 0] S2048x18
  transposes_S2048x3_S3x2048_1_0 : S2048x3.Transposes [1, 0] S3x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  slices_S256x4096_o0_0_S256x2048 : S256x4096.Slices ![0, 0] S256x2048
  slices_S256x4096_o0_2048_S256x2048 : S256x4096.Slices ![0, 2048] S256x2048
  inb_S2048x18_S2048x18_0_0 : ∀ a, (![0, 0] : Fin 2 → Nat) a + S2048x18.size a ≤ S2048x18.size a
  h_S2048x18 : 0 < S2048x18.numel
  shapeCasts_S2048x18_S2048x18 : S2048x18.ShapeCasts S2048x18
  slices_S256x18_o0_0_S256x3 : S256x18.Slices ![0, 0] S256x3
  slices_S256x18_o0_15_S256x3 : S256x18.Slices ![0, 15] S256x3
  slices_S256x18_o0_12_S256x3 : S256x18.Slices ![0, 12] S256x3
  slices_S256x18_o0_9_S256x3 : S256x18.Slices ![0, 9] S256x3
  slices_S256x18_o0_6_S256x3 : S256x18.Slices ![0, 6] S256x3
  slices_S256x18_o0_3_S256x3 : S256x18.Slices ![0, 3] S256x3
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  slices_S256x3_o0_0_S256x1 : S256x3.Slices ![0, 0] S256x1
  slices_S3x2048_o0_0_S1x2048 : S3x2048.Slices ![0, 0] S1x2048
  broadcasts_S256x1_S256x2048 : S256x1.Broadcasts S256x2048
  broadcasts_S1x2048_S256x2048 : S1x2048.Broadcasts S256x2048
  slices_S256x3_o0_1_S256x1 : S256x3.Slices ![0, 1] S256x1
  slices_S3x2048_o1_0_S1x2048 : S3x2048.Slices ![1, 0] S1x2048
  slices_S256x3_o0_2_S256x1 : S256x3.Slices ![0, 2] S256x1
  slices_S3x2048_o2_0_S1x2048 : S3x2048.Slices ![2, 0] S1x2048
  shapeCasts_S8192x2048_S4x2048x2048 : S8192x2048.ShapeCasts S4x2048x2048
  dot_S256x2048_S2048x4096_S256x4096_1_0_0_1_n_n_wf : DotDims.WF S256x2048 S2048x4096 S256x4096 [1] [0] [0] [1] [] []
  dot_S256x2048_S2048x18_S256x18_1_0_0_1_n_n_wf : DotDims.WF S256x2048 S2048x18 S256x18 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x18.size a ≤ S2048x18.size a
  hwx0_2 : ∀ i : grid0.Coords, EltTy.bits .f32 = 32 ∨ (Rect.block (s := S2048x18) S2048x18.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2048.size a ≤ S3x2048.size a
  hwx0_3 : ∀ i : grid0.Coords, EltTy.bits .f32 = 32 ∨ (Rect.block (s := S3x2048) S3x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S256x2048_S2048x18_S256x18_1_0_0_1_n_n : DotDims S256x2048 S2048x18 S256x18 where
  lhsContracting := [1]
  rhsContracting := [0]
  lhsNonContracting := [0]
  rhsNonContracting := [1]
  lhsBatch := []
  rhsBatch := []
  wf := dot_S256x2048_S2048x18_S256x18_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x18.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S3x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S3x6x2048 : Shape := ⟨3, ![3, 6, 2048]⟩
abbrev S2048x3 : Shape := ⟨2, ![2048, 3]⟩
abbrev S_ : Shape := ⟨0, ![]⟩
abbrev S4x2048x3x6 : Shape := ⟨4, ![4, 2048, 3, 6]⟩
abbrev S4x2048x3x1 : Shape := ⟨4, ![4, 2048, 3, 1]⟩
abbrev S4x2048x3 : Shape := ⟨3, ![4, 2048, 3]⟩
abbrev S4x2048x3x5 : Shape := ⟨4, ![4, 2048, 3, 5]⟩

abbrev nBuf : Space → Nat
  | .hbm => 125
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S3x6x2048, .f32⟩
  | .hbm, ⟨4, _⟩ => ⟨S2048x3, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x3x6, .f32⟩
  | .hbm, ⟨17, _⟩ => ⟨S4x2048x3x1, .f32⟩
  | .hbm, ⟨18, _⟩ => ⟨S4x2048x3, .f32⟩
  | .hbm, ⟨19, _⟩ => ⟨S4x2048x3x5, .f32⟩
  | .hbm, ⟨20, _⟩ => ⟨S_, .f32⟩
  | .hbm, ⟨21, _⟩ => ⟨S4x2048x3, .f32⟩
  | .hbm, ⟨22, _⟩ => ⟨S_, .f32⟩
  | .hbm, ⟨23, _⟩ => ⟨S4x2048x3, .f32⟩
  | .hbm, ⟨24, _⟩ => ⟨S4x2048x3, .f32⟩
  | .hbm, ⟨25, _⟩ => ⟨S4x2048x3, .f32⟩
  | .hbm, ⟨26, _⟩ => ⟨S_, .f32⟩
  | .hbm, ⟨27, _⟩ => ⟨S4x2048x3, .f32⟩
  | .hbm, ⟨28, _⟩ => ⟨S4x2048x3, .i1⟩
  | .hbm, ⟨29, _⟩ => ⟨S_, .f32⟩
  | .hbm, ⟨30, _⟩ => ⟨S4x2048x3, .f32⟩
  | .hbm, ⟨31, _⟩ => ⟨S4x2048x3, .i1⟩
  | .hbm, ⟨32, _⟩ => ⟨S_, .f32⟩
  | .hbm, ⟨33, _⟩ => ⟨S_, .f32⟩
  | .hbm, ⟨34, _⟩ => ⟨S4x2048x3, .f32⟩
  | .hbm, ⟨35, _⟩ => ⟨S4x2048x3, .f32⟩
  | .hbm, ⟨36, _⟩ => ⟨S4x2048x3, .f32⟩
  | .hbm, ⟨37, _⟩ => ⟨S4x2048x3, .f32⟩
  | .hbm, ⟨38, _⟩ => ⟨S4x2048x3, .f32⟩
  | .hbm, ⟨39, _⟩ => ⟨S4x2048x3x1, .f32⟩
  | .hbm, ⟨40, _⟩ => ⟨S4x2048x3, .f32⟩
  | .hbm, ⟨41, _⟩ => ⟨S4x2048x3, .f32⟩
  | .hbm, ⟨42, _⟩ => ⟨S_, .f32⟩
  | .hbm, ⟨43, _⟩ => ⟨S4x2048x3, .f32⟩
  | .hbm, ⟨44, _⟩ => ⟨S4x2048x3, .f32⟩
  | .hbm, ⟨45, _⟩ => ⟨S4x2048x3, .f32⟩
  | .hbm, ⟨46, _⟩ => ⟨S_, .f32⟩
  | .hbm, ⟨47, _⟩ => ⟨S4x2048x3, .f32⟩
  | .hbm, ⟨48, _⟩ => ⟨S4x2048x3, .i1⟩
  | .hbm, ⟨49, _⟩ => ⟨S_, .f32⟩
  | .hbm, ⟨50, _⟩ => ⟨S4x2048x3, .f32⟩
  | .hbm, ⟨51, _⟩ => ⟨S4x2048x3, .i1⟩
  | .hbm, ⟨52, _⟩ => ⟨S_, .f32⟩
  | .hbm, ⟨53, _⟩ => ⟨S_, .f32⟩
  | .hbm, ⟨54, _⟩ => ⟨S4x2048x3, .f32⟩
  | .hbm, ⟨55, _⟩ => ⟨S4x2048x3, .f32⟩
  | .hbm, ⟨56, _⟩ => ⟨S4x2048x3, .f32⟩
  | .hbm, ⟨57, _⟩ => ⟨S4x2048x3, .f32⟩
  | .hbm, ⟨58, _⟩ => ⟨S4x2048x3, .f32⟩
  | .hbm, ⟨59, _⟩ => ⟨S4x2048x3x1, .f32⟩
  | .hbm, ⟨60, _⟩ => ⟨S4x2048x3, .f32⟩
  | .hbm, ⟨61, _⟩ => ⟨S4x2048x3, .f32⟩
  | .hbm, ⟨62, _⟩ => ⟨S_, .f32⟩
  | .hbm, ⟨63, _⟩ => ⟨S4x2048x3, .f32⟩
  | .hbm, ⟨64, _⟩ => ⟨S4x2048x3, .f32⟩
  | .hbm, ⟨65, _⟩ => ⟨S4x2048x3, .f32⟩
  | .hbm, ⟨66, _⟩ => ⟨S_, .f32⟩
  | .hbm, ⟨67, _⟩ => ⟨S4x2048x3, .f32⟩
  | .hbm, ⟨68, _⟩ => ⟨S4x2048x3, .i1⟩
  | .hbm, ⟨69, _⟩ => ⟨S_, .f32⟩
  | .hbm, ⟨70, _⟩ => ⟨S4x2048x3, .f32⟩
  | .hbm, ⟨71, _⟩ => ⟨S4x2048x3, .i1⟩
  | .hbm, ⟨72, _⟩ => ⟨S_, .f32⟩
  | .hbm, ⟨73, _⟩ => ⟨S_, .f32⟩
  | .hbm, ⟨74, _⟩ => ⟨S4x2048x3, .f32⟩
  | .hbm, ⟨75, _⟩ => ⟨S4x2048x3, .f32⟩
  | .hbm, ⟨76, _⟩ => ⟨S4x2048x3, .f32⟩
  | .hbm, ⟨77, _⟩ => ⟨S4x2048x3, .f32⟩
  | .hbm, ⟨78, _⟩ => ⟨S4x2048x3, .f32⟩
  | .hbm, ⟨79, _⟩ => ⟨S4x2048x3x1, .f32⟩
  | .hbm, ⟨80, _⟩ => ⟨S4x2048x3, .f32⟩
  | .hbm, ⟨81, _⟩ => ⟨S4x2048x3, .f32⟩
  | .hbm, ⟨82, _⟩ => ⟨S_, .f32⟩
  | .hbm, ⟨83, _⟩ => ⟨S4x2048x3, .f32⟩
  | .hbm, ⟨84, _⟩ => ⟨S4x2048x3, .f32⟩
  | .hbm, ⟨85, _⟩ => ⟨S4x2048x3, .f32⟩
  | .hbm, ⟨86, _⟩ => ⟨S_, .f32⟩
  | .hbm, ⟨87, _⟩ => ⟨S4x2048x3, .f32⟩
  | .hbm, ⟨88, _⟩ => ⟨S4x2048x3, .i1⟩
  | .hbm, ⟨89, _⟩ => ⟨S_, .f32⟩
  | .hbm, ⟨90, _⟩ => ⟨S4x2048x3, .f32⟩
  | .hbm, ⟨91, _⟩ => ⟨S4x2048x3, .i1⟩
  | .hbm, ⟨92, _⟩ => ⟨S_, .f32⟩
  | .hbm, ⟨93, _⟩ => ⟨S_, .f32⟩
  | .hbm, ⟨94, _⟩ => ⟨S4x2048x3, .f32⟩
  | .hbm, ⟨95, _⟩ => ⟨S4x2048x3, .f32⟩
  | .hbm, ⟨96, _⟩ => ⟨S4x2048x3, .f32⟩
  | .hbm, ⟨97, _⟩ => ⟨S4x2048x3, .f32⟩
  | .hbm, ⟨98, _⟩ => ⟨S4x2048x3, .f32⟩
  | .hbm, ⟨99, _⟩ => ⟨S4x2048x3x1, .f32⟩
  | .hbm, ⟨100, _⟩ => ⟨S4x2048x3, .f32⟩
  | .hbm, ⟨101, _⟩ => ⟨S4x2048x3, .f32⟩
  | .hbm, ⟨102, _⟩ => ⟨S_, .f32⟩
  | .hbm, ⟨103, _⟩ => ⟨S4x2048x3, .f32⟩
  | .hbm, ⟨104, _⟩ => ⟨S4x2048x3, .f32⟩
  | .hbm, ⟨105, _⟩ => ⟨S4x2048x3, .f32⟩
  | .hbm, ⟨106, _⟩ => ⟨S_, .f32⟩
  | .hbm, ⟨107, _⟩ => ⟨S4x2048x3, .f32⟩
  | .hbm, ⟨108, _⟩ => ⟨S4x2048x3, .i1⟩
  | .hbm, ⟨109, _⟩ => ⟨S_, .f32⟩
  | .hbm, ⟨110, _⟩ => ⟨S4x2048x3, .f32⟩
  | .hbm, ⟨111, _⟩ => ⟨S4x2048x3, .i1⟩
  | .hbm, ⟨112, _⟩ => ⟨S_, .f32⟩
  | .hbm, ⟨113, _⟩ => ⟨S_, .f32⟩
  | .hbm, ⟨114, _⟩ => ⟨S4x2048x3, .f32⟩
  | .hbm, ⟨115, _⟩ => ⟨S4x2048x3, .f32⟩
  | .hbm, ⟨116, _⟩ => ⟨S4x2048x3, .f32⟩
  | .hbm, ⟨117, _⟩ => ⟨S4x2048x3, .f32⟩
  | .hbm, ⟨118, _⟩ => ⟨S4x2048x3, .f32⟩
  | .hbm, ⟨119, _⟩ => ⟨S4x2048x3x1, .f32⟩
  | .hbm, ⟨120, _⟩ => ⟨S4x2048x3, .f32⟩
  | .hbm, ⟨121, _⟩ => ⟨S4x2048x3, .f32⟩
  | .hbm, ⟨122, _⟩ => ⟨S4x2048x3, .f32⟩
  | .hbm, ⟨123, _⟩ => ⟨S4x2048x2048, .f32⟩
  | .hbm, ⟨124, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_cst_6 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_cst_11 : Ref sig .tc := ⟨.hbm, 53, rfl⟩
abbrev main_call2_v0 : Ref sig .tc := ⟨.hbm, 54, rfl⟩
abbrev main_call2_v1 : Ref sig .tc := ⟨.hbm, 55, rfl⟩
abbrev main_v33 : Ref sig .tc := ⟨.hbm, 56, rfl⟩
abbrev main_call3_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_13 : Ref sig .tc := ⟨.hbm, 66, rfl⟩
abbrev main_v41 : Ref sig .tc := ⟨.hbm, 67, rfl⟩
abbrev main_v42 : Ref sig .tc := ⟨.hbm, 68, rfl⟩
abbrev main_cst_14 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩
abbrev main_cst_16 : Ref sig .tc := ⟨.hbm, 73, rfl⟩
abbrev main_call4_v0 : Ref sig .tc := ⟨.hbm, 74, rfl⟩
abbrev main_call4_v1 : Ref sig .tc := ⟨.hbm, 75, rfl⟩
abbrev main_v45 : Ref sig .tc := ⟨.hbm, 76, rfl⟩
abbrev main_call5_v0 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_17 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_18 : Ref sig .tc := ⟨.hbm, 86, rfl⟩
abbrev main_v53 : Ref sig .tc := ⟨.hbm, 87, rfl⟩
abbrev main_v54 : Ref sig .tc := ⟨.hbm, 88, rfl⟩
abbrev main_cst_19 : Ref sig .tc := ⟨.hbm, 89, rfl⟩
abbrev main_v55 : Ref sig .tc := ⟨.hbm, 90, rfl⟩
abbrev main_v56 : Ref sig .tc := ⟨.hbm, 91, rfl⟩
abbrev main_cst_20 : Ref sig .tc := ⟨.hbm, 92, rfl⟩
abbrev main_cst_21 : Ref sig .tc := ⟨.hbm, 93, rfl⟩
abbrev main_call6_v0 : Ref sig .tc := ⟨.hbm, 94, rfl⟩
abbrev main_call6_v1 : Ref sig .tc := ⟨.hbm, 95, rfl⟩
abbrev main_v57 : Ref sig .tc := ⟨.hbm, 96, rfl⟩
abbrev main_call7_v0 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_22 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_23 : Ref sig .tc := ⟨.hbm, 106, rfl⟩
abbrev main_v65 : Ref sig .tc := ⟨.hbm, 107, rfl⟩
abbrev main_v66 : Ref sig .tc := ⟨.hbm, 108, rfl⟩
abbrev main_cst_24 : Ref sig .tc := ⟨.hbm, 109, rfl⟩
abbrev main_v67 : Ref sig .tc := ⟨.hbm, 110, rfl⟩
abbrev main_v68 : Ref sig .tc := ⟨.hbm, 111, rfl⟩
abbrev main_cst_25 : Ref sig .tc := ⟨.hbm, 112, rfl⟩
abbrev main_cst_26 : Ref sig .tc := ⟨.hbm, 113, rfl⟩
abbrev main_call8_v0 : Ref sig .tc := ⟨.hbm, 114, rfl⟩
abbrev main_call8_v1 : Ref sig .tc := ⟨.hbm, 115, rfl⟩
abbrev main_v69 : Ref sig .tc := ⟨.hbm, 116, rfl⟩
abbrev main_call9_v0 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  slices_S4x2048x3x6_S4x2048x3x1_0_0_0_0 : S4x2048x3x6.Slices ![0, 0, 0, 0] S4x2048x3x1
  shapeCasts_S4x2048x3x1_S4x2048x3 : S4x2048x3x1.ShapeCasts S4x2048x3
  slices_S4x2048x3x6_S4x2048x3x5_0_0_0_1 : S4x2048x3x6.Slices ![0, 0, 0, 1] S4x2048x3x5
  bcast_S_S4x2048x3 : S_.BroadcastsInDim S4x2048x3 (![] : Fin 0 → Fin S4x2048x3.rank)
  slices_S4x2048x3x5_S4x2048x3x1_0_0_0_4 : S4x2048x3x5.Slices ![0, 0, 0, 4] S4x2048x3x1
  slices_S4x2048x3x5_S4x2048x3x1_0_0_0_3 : S4x2048x3x5.Slices ![0, 0, 0, 3] S4x2048x3x1
  slices_S4x2048x3x5_S4x2048x3x1_0_0_0_2 : S4x2048x3x5.Slices ![0, 0, 0, 2] S4x2048x3x1
  slices_S4x2048x3x5_S4x2048x3x1_0_0_0_1 : S4x2048x3x5.Slices ![0, 0, 0, 1] S4x2048x3x1
  slices_S4x2048x3x5_S4x2048x3x1_0_0_0_0 : S4x2048x3x5.Slices ![0, 0, 0, 0] S4x2048x3x1
  dot_S4x2048x2048_S2048x2048_S4x2048x2048_2_1_01_0_n_n_wf : DotDims.WF S4x2048x2048 S2048x2048 S4x2048x2048 [2] [1] [0, 1] [0] [] []
  dot_S4x2048x2048_S3x6x2048_S4x2048x3x6_2_2_01_01_n_n_wf : DotDims.WF S4x2048x2048 S3x6x2048 S4x2048x3x6 [2] [2] [0, 1] [0, 1] [] []
  dot_S4x2048x3_S2048x3_S4x2048x2048_2_1_01_0_n_n_wf : DotDims.WF S4x2048x3 S2048x3 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x2048x2048_S3x6x2048_S4x2048x3x6_2_2_01_01_n_n : DotDims S4x2048x2048 S3x6x2048 S4x2048x3x6 where
  lhsContracting := [2]
  rhsContracting := [2]
  lhsNonContracting := [0, 1]
  rhsNonContracting := [0, 1]
  lhsBatch := []
  rhsBatch := []
  wf := dot_S4x2048x2048_S3x6x2048_S4x2048x3x6_2_2_01_01_n_n_wf
def dot_S4x2048x3_S2048x3_S4x2048x2048_2_1_01_0_n_n : DotDims S4x2048x3 S2048x3 S4x2048x2048 where
  lhsContracting := [2]
  rhsContracting := [1]
  lhsNonContracting := [0, 1]
  rhsNonContracting := [0]
  lhsBatch := []
  rhsBatch := []
  wf := dot_S4x2048x3_S2048x3_S4x2048x2048_2_1_01_0_n_n_wf

class Facts : Prop extends Facts₀ where

variable [Facts]
-- ==== Proof.Ladder.lean ====
/-
  The function both programs compute, stated once over plain coordinates.

  One row `x : Fin 2048 → EReal` of the input goes through
    lin o   = ∑ d, x d · U o d                      (the linear head)
    gx d    = σ(∑ k, x k · gate d k) · x d          (the gated row; σ t = 1 / (1 + e^(-t)))
    a l k   = ∑ d, gx d · lad l k d                 (three ladders, six coefficients each)
    z l     = a l 0 + a l 1 / ⟦1 + a l 2 / ⟦1 + a l 3 / ⟦1 + a l 4 / ⟦1 + a l 5 / ⟦1 + 0⟧⟧⟧⟧⟧
    out o   = lin o + ∑ l, z l · V o l
  where ⟦d⟧ is the pole guard: a denominator closer to zero than ε is replaced by ±ε, with the sign of `d`
  (`+ε` at `d ≥ 0`). All arithmetic is that of the extended reals; ε, 1 and 0 stay the four float words the programs
  write, read at the ideal instance.
-/
import Idealize.ShloMosaic.PureOps.Ideal
import Idealize.ShloMosaic.PureOps.Ideal.Laws
import Idealize.ShloMosaic.Lib.ValueIdx

noncomputable section

namespace Cert.Ladder

open Idealize.ShloMosaic Idealize.ShloMosaic.ValueIdx

/-- The float words of 1, 0, ε = f32(0.01) and -ε, as extended reals. -/
abbrev one : EReal := Ideal.ofBits .f32 0x3F800000#32
abbrev zero : EReal := Ideal.ofBits .f32 0x00000000#32
abbrev eps : EReal := Ideal.ofBits .f32 0x3C23D70A#32
abbrev negEps : EReal := Ideal.ofBits .f32 0xBC23D70A#32

/-- The word of 1.0 is the extended real 1. -/
theorem one_eq : one = 1 := by
  show Ideal.ofBits .f32 0x3F800000#32 = 1
  simp [Ideal.ofBits, Ideal.ieee, -EReal.coe_mul]; norm_num

/-- The pole guard: `d` itself unless `|d| < ε`, then `ε` for `d ≥ 0` and `-ε` otherwise. -/
def guard (d : EReal) : EReal :=
  Scalar.select (FloatOps.cmpf (F := Ideal) (φ := .f32) .olt (FloatOps.absf (F := Ideal) (φ := .f32) d) eps)
    (Scalar.select (FloatOps.cmpf (F := Ideal) (φ := .f32) .oge d zero) eps negEps) d

/-- One rung of the continued fraction: `a / ⟦1 + f⟧`. -/
def rung (a f : EReal) : EReal := Ideal.div a (guard (one + f))

/-- The depth-5 continued fraction over six coefficients, evaluated from the innermost rung out. -/
def fraction (a : Fin 6 → EReal) : EReal :=
  a 0 + rung (a 1) (rung (a 2) (rung (a 3) (rung (a 4) (rung (a 5) zero))))

/-- The logistic function in the spelling `1 / (1 + e^(-t))` over the float word of 1. -/
def sigma (t : EReal) : EReal := Ideal.div one (one + Ideal.exp (-t))

/-- The ideal instance's logistic is that expression. -/
theorem logistic_eq_sigma (t : EReal) : Ideal.logistic t = sigma t := by
  unfold sigma Ideal.logistic
  rw [one_eq]

/-- The gated row. -/
def gated (x : Fin 2048 → EReal) (gate : Fin 2048 → Fin 2048 → EReal) (d : Fin 2048) : EReal :=
  sigma (∑ k : Fin 2048, x k * gate d k) * x d

/-- Ladder `l`'s value on the row. -/
def rungs (x : Fin 2048 → EReal) (gate : Fin 2048 → Fin 2048 → EReal) (lad : Fin 3 → Fin 6 → Fin 2048 → EReal) (l : Fin 3) : EReal :=
  fraction fun k => ∑ d : Fin 2048, gated x gate d * lad l k d

/-- The row's output at column `o`. -/
def out (x : Fin 2048 → EReal) (U gate : Fin 2048 → Fin 2048 → EReal) (lad : Fin 3 → Fin 6 → Fin 2048 → EReal)
    (V : Fin 2048 → Fin 3 → EReal) (o : Fin 2048) : EReal :=
  (∑ d : Fin 2048, x d * U o d) + ∑ l : Fin 3, rungs x gate lad l * V o l

/-- The same with the three ladder terms added one after the other onto the linear head: addition of extended reals
    is associative, so the grouping does not matter. -/
theorem out_eq_left_assoc (x : Fin 2048 → EReal) (U gate : Fin 2048 → Fin 2048 → EReal) (lad : Fin 3 → Fin 6 → Fin 2048 → EReal)
    (V : Fin 2048 → Fin 3 → EReal) (o : Fin 2048) :
    (((∑ d : Fin 2048, x d * U o d) + rungs x gate lad 0 * V o 0) + rungs x gate lad 1 * V o 1) + rungs x gate lad 2 * V o 2
      = out x U gate lad V o := by
  unfold out
  rw [Fin.sum_univ_three, add_assoc, add_assoc, add_assoc]

/-- The whole result array as one function of the five argument arrays: entry `(b, s, o)` is row `(b, s)`'s output at
    column `o`. -/
def G (x : (⟨3, ![4, 2048, 2048]⟩ : Shape).Idx → EReal) (U gate : (⟨2, ![2048, 2048]⟩ : Shape).Idx → EReal)
    (lad : (⟨3, ![3, 6, 2048]⟩ : Shape).Idx → EReal) (V : (⟨2, ![2048, 3]⟩ : Shape).Idx → EReal) :
    (⟨3, ![4, 2048, 2048]⟩ : Shape).Idx → EReal :=
  fun i => out (fun d => x (ix3 (i 0) (i 1) d)) (fun o d => U (ix2 o d)) (fun o d => gate (ix2 o d))
    (fun l k d => lad (ix3 l k d)) (fun o l => V (ix2 o l)) (i 2)

end Cert.Ladder

end
-- ==== Proof.Body.lean ====
/-
  The kernel body's stored value, read at row `p` and column `o` of a 256-row block.

  The body multiplies the block `x0` (256 rows of the input) by the fused weight `x1 = [Uᵀ | gateᵀ]` in one product,
  takes the left half as the linear head and the right half as the gate logits, forms the gated rows, multiplies them by
  the ladder weights `x2` (column `3k + l` holds coefficient `k` of ladder `l`), runs the five guarded rungs on the
  three ladders side by side, and adds the three ladder values, each times its row of `x3 = Vᵀ`, onto the head one after
  the other. Read at `(p, o)` every product is a plain sum over the contracted axis and every other operation acts on
  the entry alone, so the stored entry is `Cert.Ladder.out` of row `p`, whatever the four blocks are, as long as they hold
  the weights in that layout.
-/
import proofs.«170637_j68478958568093_2_alg».proof.Proof.Gen.KernelIdeal.Skeleton
import proofs.«170637_j68478958568093_2_alg».proof.Proof.Ladder
import Idealize.ShloMosaic.Lib.Pipeline.Value
import Idealize.ShloMosaic.Lib.ValueIdx
import Idealize.ShloMosaic.Lib.ValueLayout
import Idealize.ShloMosaic.PureOps.Ideal.Laws

noncomputable section

namespace Cert.Ladder.Body

open Cert.KernelIdeal Cert.KernelIdeal.Gen Idealize.ShloMosaic Idealize.ShloMosaic.ValueIdx Cert.Ladder

/-! ## Small readings at an index -/

section Readings
variable {s : Shape} {φ : FTy}

theorem absf_at (a : FVec Ideal s φ) (i : s.Idx) : absf a i = FloatOps.absf (a i) := rfl
theorem logistic_at (a : FVec Ideal s φ) (i : s.Idx) : logistic a i = Ideal.logistic (a i) := rfl

/-- A `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Readings

/-! ## The two products, as sums over the contracted axis -/

theorem fused_mm_lhs0 (i : S256x4096.Idx) (q : dot_S256x2048_S2048x4096_S256x4096_1_0_0_1_n_n.contr.Idx) : (dot_S256x2048_S2048x4096_S256x4096_1_0_0_1_n_n.lhsIdx i q 0).val = (i 0).val := by
  unfold DotDims.lhsIdx
  rw [dif_neg (show ¬(0 : Fin S256x2048.rank) ∈ dot_S256x2048_S2048x4096_S256x4096_1_0_0_1_n_n.lhsBatch by decide), dif_pos (show (0 : Fin S256x2048.rank) ∈ dot_S256x2048_S2048x4096_S256x4096_1_0_0_1_n_n.lhsNonContracting by decide)]
  rfl
theorem fused_mm_rhs1 (i : S256x4096.Idx) (q : dot_S256x2048_S2048x4096_S256x4096_1_0_0_1_n_n.contr.Idx) : (dot_S256x2048_S2048x4096_S256x4096_1_0_0_1_n_n.rhsIdx i q 1).val = (i 1).val := by
  unfold DotDims.rhsIdx
  rw [dif_neg (show ¬(1 : Fin S2048x4096.rank) ∈ dot_S256x2048_S2048x4096_S256x4096_1_0_0_1_n_n.rhsBatch by decide), dif_pos (show (1 : Fin S2048x4096.rank) ∈ dot_S256x2048_S2048x4096_S256x4096_1_0_0_1_n_n.rhsNonContracting by decide)]
  rfl

/-- The fused product at `(p, q)`: row `p` of the left operand against column `q` of the right. -/
theorem fused_mm (lhs : FVec Ideal S256x2048 .bf16) (rhs : FVec Ideal S2048x4096 .bf16) (prec : Option ContractPrecision) (p : Fin 256) (q : Fin 4096) :
    FloatOps.matmul dot_S256x2048_S2048x4096_S256x4096_1_0_0_1_n_n prec lhs rhs (constant (F := Ideal) S256x4096 .f32 0x00000000#32) (ix2 p q)
      = ∑ k : Fin 2048, lhs (ix2 p k) * rhs (ix2 k q) := by
  rw [Ideal.matmul_constant_zero_apply, ← Equiv.sum_comp (contrEquiv1 dot_S256x2048_S2048x4096_S256x4096_1_0_0_1_n_n 2048 rfl rfl).symm]
  refine Finset.sum_congr rfl fun k _ => ?_
  have hk := contrEquiv1_symm_val dot_S256x2048_S2048x4096_S256x4096_1_0_0_1_n_n 2048 rfl rfl k
  have el : dot_S256x2048_S2048x4096_S256x4096_1_0_0_1_n_n.lhsIdx (ix2 p q) ((contrEquiv1 dot_S256x2048_S2048x4096_S256x4096_1_0_0_1_n_n 2048 rfl rfl).symm k) = ix2 p k := funext fun a => Fin.ext (by
    match a with
    | ⟨0, _⟩ => exact fused_mm_lhs0 _ _
    | ⟨1, _⟩ => exact (dot_S256x2048_S2048x4096_S256x4096_1_0_0_1_n_n.lhsIdx_val_of_single rfl _ _).trans hk)
  have er : dot_S256x2048_S2048x4096_S256x4096_1_0_0_1_n_n.rhsIdx (ix2 p q) ((contrEquiv1 dot_S256x2048_S2048x4096_S256x4096_1_0_0_1_n_n 2048 rfl rfl).symm k) = ix2 k q := funext fun a => Fin.ext (by
    match a with
    | ⟨0, _⟩ => exact (dot_S256x2048_S2048x4096_S256x4096_1_0_0_1_n_n.rhsIdx_val_of_single rfl _ _).trans hk
    | ⟨1, _⟩ => exact fused_mm_rhs1 _ _)
  rw [el, er]

theorem ladder_mm_lhs0 (i : S256x18.Idx) (q : dot_S256x2048_S2048x18_S256x18_1_0_0_1_n_n.contr.Idx) : (dot_S256x2048_S2048x18_S256x18_1_0_0_1_n_n.lhsIdx i q 0).val = (i 0).val := by
  unfold DotDims.lhsIdx
  rw [dif_neg (show ¬(0 : Fin S256x2048.rank) ∈ dot_S256x2048_S2048x18_S256x18_1_0_0_1_n_n.lhsBatch by decide), dif_pos (show (0 : Fin S256x2048.rank) ∈ dot_S256x2048_S2048x18_S256x18_1_0_0_1_n_n.lhsNonContracting by decide)]
  rfl
theorem ladder_mm_rhs1 (i : S256x18.Idx) (q : dot_S256x2048_S2048x18_S256x18_1_0_0_1_n_n.contr.Idx) : (dot_S256x2048_S2048x18_S256x18_1_0_0_1_n_n.rhsIdx i q 1).val = (i 1).val := by
  unfold DotDims.rhsIdx
  rw [dif_neg (show ¬(1 : Fin S2048x18.rank) ∈ dot_S256x2048_S2048x18_S256x18_1_0_0_1_n_n.rhsBatch by decide), dif_pos (show (1 : Fin S2048x18.rank) ∈ dot_S256x2048_S2048x18_S256x18_1_0_0_1_n_n.rhsNonContracting by decide)]
  rfl

/-- The ladder product at `(p, c)`: row `p` of the left operand against column `c` of the right. -/
theorem ladder_mm (lhs : FVec Ideal S256x2048 .f32) (rhs : FVec Ideal S2048x18 .f32) (prec : Option ContractPrecision) (p : Fin 256) (q : Fin 18) :
    FloatOps.matmul dot_S256x2048_S2048x18_S256x18_1_0_0_1_n_n prec lhs rhs (constant (F := Ideal) S256x18 .f32 0x00000000#32) (ix2 p q)
      = ∑ k : Fin 2048, lhs (ix2 p k) * rhs (ix2 k q) := by
  rw [Ideal.matmul_constant_zero_apply, ← Equiv.sum_comp (contrEquiv1 dot_S256x2048_S2048x18_S256x18_1_0_0_1_n_n 2048 rfl rfl).symm]
  refine Finset.sum_congr rfl fun k _ => ?_
  have hk := contrEquiv1_symm_val dot_S256x2048_S2048x18_S256x18_1_0_0_1_n_n 2048 rfl rfl k
  have el : dot_S256x2048_S2048x18_S256x18_1_0_0_1_n_n.lhsIdx (ix2 p q) ((contrEquiv1 dot_S256x2048_S2048x18_S256x18_1_0_0_1_n_n 2048 rfl rfl).symm k) = ix2 p k := funext fun a => Fin.ext (by
    match a with
    | ⟨0, _⟩ => exact ladder_mm_lhs0 _ _
    | ⟨1, _⟩ => exact (dot_S256x2048_S2048x18_S256x18_1_0_0_1_n_n.lhsIdx_val_of_single rfl _ _).trans hk)
  have er : dot_S256x2048_S2048x18_S256x18_1_0_0_1_n_n.rhsIdx (ix2 p q) ((contrEquiv1 dot_S256x2048_S2048x18_S256x18_1_0_0_1_n_n 2048 rfl rfl).symm k) = ix2 k q := funext fun a => Fin.ext (by
    match a with
    | ⟨0, _⟩ => exact (dot_S256x2048_S2048x18_S256x18_1_0_0_1_n_n.rhsIdx_val_of_single rfl _ _).trans hk
    | ⟨1, _⟩ => exact ladder_mm_rhs1 _ _)
  rw [el, er]

variable (x0 : Vec Ideal S256x2048 .f32) (x1 : Vec Ideal S2048x4096 .bf16) (x2 : Vec Ideal S2048x18 .f32) (x3 : Vec Ideal S3x2048 .f32)

/-! ## The stages of the body at an index -/

/-- The fused product of the block with the fused weight. -/
theorem fused_at (p : Fin 256) (q : Fin 4096) :
    k0_pay3 (F := Ideal) x0 x1 (ix2 p q) = ∑ k : Fin 2048, x0 (ix2 p k) * x1 (ix2 k q) := by
  unfold k0_pay3 k0_pay2
  refine (fused_mm _ _ none p q).trans ?_
  refine Finset.sum_congr rfl fun k _ => ?_
  rw [truncf_apply, shapeCast_self, shapeCast_self]

/-- The linear head: the left half of the fused product. -/
theorem head_at (p : Fin 256) (o : Fin 2048) :
    k0_pay4 (F := Ideal) x0 x1 (ix2 p o) = ∑ k : Fin 2048, x0 (ix2 p k) * x1 (ix2 k ⟨o.val, by have := o.isLt; omega⟩) := by
  unfold k0_pay4
  refine (slice2_axis1_apply 0 (k0_pay3 (F := Ideal) x0 x1) _ p o ⟨o.val, by have := o.isLt; omega⟩ (Nat.zero_add _).symm).trans ?_
  exact fused_at x0 x1 p _

/-- The column of the ladder weights that holds coefficient `k` of ladder `l`. -/
def col (k : Fin 6) (l : Fin 3) : Fin 18 := ⟨3 * k.val + l.val, by have := k.isLt; have := l.isLt; omega⟩

/-- The eighteen coefficients: the gated row against the ladder weights. -/
theorem coefs_at (p : Fin 256) (c : Fin 18) :
    k0_pay5 (F := Ideal) x0 x1 x2 (ix2 p c)
      = ∑ d : Fin 2048, (sigma (∑ k : Fin 2048, x0 (ix2 p k) * x1 (ix2 k ⟨2048 + d.val, by have := d.isLt; omega⟩)) * x0 (ix2 p d)) * x2 (ix2 d c) := by
  unfold k0_pay5 k0_pay2
  refine (ladder_mm _ _ (some .fp32) p c).trans ?_
  refine Finset.sum_congr rfl fun d _ => ?_
  rw [mulf_apply, logistic_at, logistic_eq_sigma, shapeCast_self, shapeCast_self,
    slice2_axis1_apply 2048 (k0_pay3 (F := Ideal) x0 x1) _ p d ⟨2048 + d.val, by have := d.isLt; omega⟩ rfl, fused_at]

/-- The three ladders side by side: at `(p, l)` the continued fraction over ladder `l`'s six coefficients of row `p`. -/
theorem ladder_at (p : Fin 256) (l : Fin 3) :
    k0_pay9 (F := Ideal) (k0_pay5 x0 x1 x2) (k0_pay6 x0 x1 x2) (k0_pay7 x0 x1 x2) (k0_pay8 x0 x1 x2) (ix2 p l)
      = fraction fun k => k0_pay5 (F := Ideal) x0 x1 x2 (ix2 p (col k l)) := by
  unfold k0_pay9 k0_pay8 k0_pay7 k0_pay6
  generalize k0_pay5 (F := Ideal) x0 x1 x2 = a
  simp only [addf_apply, divf_apply, select_apply, cmpf_apply, broadcast_apply, absf_at, slice2_axis1_eq]
  rfl

/-- The stored value: the head plus the three ladder terms, added in order. -/
theorem stored_at (v6 : FVec Ideal S256x2048 .f32) (v80 : FVec Ideal S256x3 .f32) (p : Fin 256) (o : Fin 2048) :
    k0_pay1 (F := Ideal) v6 v80 (k0_pay10 x3) (ix2 p o)
      = ((v6 (ix2 p o) + v80 (ix2 p 0) * x3 (ix2 0 o)) + v80 (ix2 p 1) * x3 (ix2 1 o)) + v80 (ix2 p 2) * x3 (ix2 2 o) := by
  unfold k0_pay1 k0_pay10
  simp only [addf_apply, mulf_apply, broadcastTo_a1_ab_apply, broadcastTo_1b_ab_apply, slice2_axis1_eq, slice2_axis0_eq, shapeCast_self]
  rfl

/-! ## The block's row is the ladder function of the row -/

/-- Whatever the four blocks are, if they hold row `p` of the input, the fused and the ladder weights and `Vᵀ` in the
    layout above, the stored entry `(p, o)` is the ladder function of that row at column `o`. -/
theorem stored_eq_out (p : Fin 256) (o : Fin 2048)
    (xr : Fin 2048 → EReal) (U gate : Fin 2048 → Fin 2048 → EReal) (lad : Fin 3 → Fin 6 → Fin 2048 → EReal) (V : Fin 2048 → Fin 3 → EReal)
    (h0 : ∀ k : Fin 2048, x0 (ix2 p k) = xr k)
    (hU : ∀ (k o : Fin 2048), x1 (ix2 k ⟨o.val, by have := o.isLt; omega⟩) = U o k)
    (hG : ∀ (k d : Fin 2048), x1 (ix2 k ⟨2048 + d.val, by have := d.isLt; omega⟩) = gate d k)
    (hL : ∀ (d : Fin 2048) (k : Fin 6) (l : Fin 3), x2 (ix2 d (col k l)) = lad l k d)
    (hV : ∀ (l : Fin 3) (o : Fin 2048), x3 (ix2 l o) = V o l) :
    k0_pay1 (F := Ideal) (k0_pay4 x0 x1) (k0_pay9 (k0_pay5 x0 x1 x2) (k0_pay6 x0 x1 x2) (k0_pay7 x0 x1 x2) (k0_pay8 x0 x1 x2)) (k0_pay10 x3) (ix2 p o)
      = out xr U gate lad V o := by
  rw [stored_at, ladder_at, ladder_at, ladder_at, head_at]
  simp only [coefs_at, h0, hU, hG, hL, hV]
  exact out_eq_left_assoc xr U gate lad V o

end Cert.Ladder.Body

end
-- ==== Proof.Prefix.lean ====
/-
  What the region finds in the four arrays it stages, entry by entry, in terms of the argument arrays.

  Before the call @main lays the arguments out for the kernel:
    rows      (r, d)        = x (r / 2048, r % 2048, d)                      the input as 8192 rows
    fused     (k, o)        = U (o, k)            for o < 2048               [Uᵀ | gateᵀ], side by side
    fused     (k, 2048 + d) = gate (d, k)
    ladders   (d, 3k + l)   = lad (l, k, d)                                  coefficient-major columns
    mix       (l, o)        = V (o, l)                                        Vᵀ
  (a change of float format is the identity at the ideal instance). Each is the corresponding stretch of @main's host
  operations read at an index.
-/
import proofs.«170637_j68478958568093_2_alg».proof.Proof.Gen.KernelIdeal.Frame
import proofs.«170637_j68478958568093_2_alg».proof.Proof.Body
import Idealize.ShloMosaic.Lib.StableHlo.Run
import Idealize.ShloMosaic.Lib.Pipeline.Value
import Idealize.ShloMosaic.Lib.ValueIdx
import Idealize.ShloMosaic.Lib.ValueLayout

noncomputable section

namespace Cert.Ladder.Prefix

open Cert.KernelIdeal Cert.KernelIdeal.Gen Idealize.ShloMosaic Idealize.ShloMosaic.TcCoe Idealize.SL.Sem
  Idealize.ShloMosaic.StableHlo Idealize.ShloMosaic.ValueIdx Cert.Ladder Cert.Ladder.Body

variable (m : (ℓ : Loc nD τ sig) → Buf (Elt Ideal) ℓ)

/-- The batch and the position of row `r` of the flattened input. -/
def rowB (r : Fin 8192) : Fin 4 := ⟨r.val / 2048, by have := r.isLt; omega⟩
def rowS (r : Fin 8192) : Fin 2048 := ⟨r.val % 2048, Nat.mod_lt _ (by decide)⟩

/-! ## The arrays as the host operations leave them -/

theorem rows_eq (c : Dev nD) :
    (V m c main_v0 : S8192x2048.Idx → EReal)
      = shapeCast S8192x2048 (m ((c : Thread nD τ).loc main_arg0)) Facts₀.shapeCasts_S4x2048x2048_S8192x2048 := by
  show StableHlo.after hostOps0 (fun b => m (c, b)) (Proc.devRef .tc main_v0) = _
  after_results <;> rfl

theorem fused_eq (c : Dev nD) :
    (V m c main_v5 : S2048x4096.Idx → EReal)
      = (concatenate S2048x4096 1
          [⟨S2048x2048, truncf (F := Ideal) .bf16 (transpose S2048x2048 [1, 0] (m ((c : Thread nD τ).loc main_arg1) : FVec Ideal S2048x2048 .f32) Facts₀.transposes_S2048x2048_S2048x2048_1_0) Facts₀.bitsLt_bf16_f32⟩,
           ⟨S2048x2048, truncf (F := Ideal) .bf16 (transpose S2048x2048 [1, 0] (m ((c : Thread nD τ).loc main_arg2) : FVec Ideal S2048x2048 .f32) Facts₀.transposes_S2048x2048_S2048x2048_1_0) Facts₀.bitsLt_bf16_f32⟩]
          Facts₀.concatenates_S2048x2048_S2048x2048_S2048x4096_d1 : S2048x4096.Idx → EReal) := by
  show StableHlo.after hostOps0 (fun b => m (c, b)) (Proc.devRef .tc main_v5) = _
  after_results <;> rfl

theorem ladders_eq (c : Dev nD) :
    (V m c main_v8 : S2048x18.Idx → EReal)
      = transpose S2048x18 [1, 0]
          (shapeCast S18x2048 (transpose S6x3x2048 [1, 0, 2] (m ((c : Thread nD τ).loc main_arg3)) Facts₀.transposes_S3x6x2048_S6x3x2048_1_0_2)
            Facts₀.shapeCasts_S6x3x2048_S18x2048) Facts₀.transposes_S18x2048_S2048x18_1_0 := by
  show StableHlo.after hostOps0 (fun b => m (c, b)) (Proc.devRef .tc main_v8) = _
  after_results <;> rfl

theorem mix_eq (c : Dev nD) :
    (V m c main_v9 : S3x2048.Idx → EReal)
      = transpose S3x2048 [1, 0] (m ((c : Thread nD τ).loc main_arg4)) Facts₀.transposes_S2048x3_S3x2048_1_0 := by
  show StableHlo.after hostOps0 (fun b => m (c, b)) (Proc.devRef .tc main_v9) = _
  after_results <;> rfl

/-! ## Read at an index -/

/-- Row `r` of the flattened input is row `(r / 2048, r % 2048)` of `x`. -/
theorem rows_at (c : Dev nD) (r : Fin 8192) (d : Fin 2048) :
    V m c main_v0 (ix2 r d) = m ((c : Thread nD τ).loc main_arg0) (ix3 (rowB r) (rowS r) d) := by
  have hr := r.isLt
  rw [rows_eq]
  exact shapeCast_apply _ _ (ix2 r d) (ix3 (rowB r) (rowS r) d) (by
    rw [Shape.rowMajor_val_three, Shape.rowMajor_val_two]
    show (r.val / 2048 * 2048 + r.val % 2048) * 2048 + d.val = r.val * 2048 + d.val
    omega)

/-- The left half of the fused weight is `Uᵀ`. -/
theorem fused_left_at (c : Dev nD) (k o : Fin 2048) :
    V m c main_v5 (ix2 k ⟨o.val, by have := o.isLt; omega⟩) = m ((c : Thread nD τ).loc main_arg1) (ix2 o k) := by
  rw [fused_eq]
  refine (concatenate_pair_apply_left (t := S2048x4096) (s₁ := S2048x2048) (s₂ := S2048x2048) (1 : Fin 2) _ _ _ (ix2 k (⟨o.val, by have := o.isLt; omega⟩ : Fin 4096)) rfl (ix2 k o) (fun b => by
    match b with
    | ⟨0, _⟩ => rfl
    | ⟨1, _⟩ => rfl)).trans ?_
  rw [truncf_apply]
  exact transpose_ix2_apply _ _ k o

/-- The right half is `gateᵀ`. -/
theorem fused_right_at (c : Dev nD) (k d : Fin 2048) :
    V m c main_v5 (ix2 k ⟨2048 + d.val, by have := d.isLt; omega⟩) = m ((c : Thread nD τ).loc main_arg2) (ix2 d k) := by
  rw [fused_eq]
  refine (concatenate_pair_apply_right (t := S2048x4096) (s₁ := S2048x2048) (s₂ := S2048x2048) (1 : Fin 2) _ _ _ (ix2 k (⟨2048 + d.val, by have := d.isLt; omega⟩ : Fin 4096)) rfl rfl (ix2 k d) (fun b hb => by
    match b with
    | ⟨0, _⟩ => rfl
    | ⟨1, _⟩ => exact absurd rfl hb) (by show d.val + 2048 = 2048 + d.val; omega)).trans ?_
  rw [truncf_apply]
  exact transpose_ix2_apply _ _ k d

/-- Column `3k + l` of the ladder weight is `lad[l, k, ·]`. -/
theorem ladders_at (c : Dev nD) (d : Fin 2048) (k : Fin 6) (l : Fin 3) :
    V m c main_v8 (ix2 d (col k l)) = m ((c : Thread nD τ).loc main_arg3) (ix3 l k d) := by
  have hk := k.isLt; have hl := l.isLt
  rw [ladders_eq]
  refine (transpose_ix2_apply _ _ d (col k l)).trans ?_
  refine (shapeCast_apply _ _ (ix2 (col k l) d) (ix3 k l d) (by
    rw [Shape.rowMajor_val_three, Shape.rowMajor_val_two]
    show (k.val * 3 + l.val) * 2048 + d.val = (3 * k.val + l.val) * 2048 + d.val
    omega)).trans ?_
  exact transpose_apply _ _ _ (ix3 k l d) (ix3 l k d) (fun b => by
    match b with
    | ⟨0, _⟩ => rfl
    | ⟨1, _⟩ => rfl
    | ⟨2, _⟩ => rfl)

/-- Row `l` of the mixing weight is column `l` of `V`. -/
theorem mix_at (c : Dev nD) (l : Fin 3) (o : Fin 2048) :
    V m c main_v9 (ix2 l o) = m ((c : Thread nD τ).loc main_arg4) (ix2 o l) := by
  rw [mix_eq]
  exact transpose_ix2_apply _ _ l o

end Cert.Ladder.Prefix

end
-- ==== Proof.Blocks.lean ====
/-
  From blocks to the array: after the region the output array, as 8192 rows, holds the ladder function of every row.

  Grid point `t` (of 32) stages rows `256 t … 256 t + 255` of the flattened input, the whole fused weight, the whole
  ladder weight and the whole `Vᵀ`, and writes back rows `256 t … 256 t + 255` of the output. So entry `(p, o)` of what it
  writes is the stored value of `Cert.Ladder.Body` on those blocks, which is the ladder function of row `256 t + p`; the
  32 blocks tile the 8192 rows, row `r` lying in block `r / 256`.
-/
import proofs.«170637_j68478958568093_2_alg».proof.Proof.Prefix
import Idealize.ShloMosaic.Lib.Pipeline.Value

set_option maxRecDepth 16384

noncomputable section

namespace Cert.Ladder.Blocks

open Cert.KernelIdeal Cert.KernelIdeal.Gen Idealize.ShloMosaic Idealize.ShloMosaic.TcCoe Idealize.SL.Sem
  Idealize.ShloMosaic.ValueIdx Cert.Ladder Cert.Ladder.Body Cert.Ladder.Prefix
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps, decided over the 32 grid points: the input rows and the output move with the point along
    axis 0; every other block index is 0. -/
theorem idx_facts : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The output as 8192 rows: row `r` is the ladder function of row `(r / 2048, r % 2048)` of the input. -/
def flat (x : S4x2048x2048.Idx → EReal) (U gate : S2048x2048.Idx → EReal) (lad : S3x6x2048.Idx → EReal) (V : S2048x3.Idx → EReal) :
    S8192x2048.Idx → EReal :=
  fun i => out (fun d => x (ix3 (rowB (i 0)) (rowS (i 0)) d)) (fun o d => U (ix2 o d)) (fun o d => gate (ix2 o d))
    (fun l k d => lad (ix3 l k d)) (fun o l => V (ix2 o l)) (i 1)

/-- Row `p` of point `t`'s block is row `256 t + p` of the array. -/
def rowOf (t : Fin cfg0.N) (p : Fin 256) : Fin 8192 :=
  ⟨t.val * 256 + p.val, by have ht : t.val < 32 := lt_of_lt_of_eq t.isLt N_0; have := p.isLt; omega⟩

/-! ## The four input blocks at a point -/

theorem rows_blk (c : Dev nD) (t : Fin cfg0.N) (p : Fin 256) (k : Fin 2048) :
    iblk m c 0 t (ix2 p k) = m ((c : Thread nD τ).loc main_arg0) (ix3 (rowB (rowOf t p)) (rowS (rowOf t p)) k) := by
  obtain ⟨-, -, e0, e1, -⟩ := idx_facts t
  show V m c main_v0 (((cfg0.win 0).blk t).view.emb (ix2 p k)) = _
  have he : ((cfg0.win 0).blk t).view.emb (ix2 p k) = ix2 (rowOf t p) k := by
    funext a; apply Fin.ext
    match a with
    | ⟨0, _⟩ => show win0_0.index t (0 : Fin 2) * 256 + 1 * p.val = t.val * 256 + p.val; omega
    | ⟨1, _⟩ => show win0_0.index t (1 : Fin 2) * 2048 + 1 * k.val = k.val; omega
  rw [he, rows_at]

theorem fused_blk (c : Dev nD) (t : Fin cfg0.N) (i : S2048x4096.Idx) : iblk m c 1 t i = V m c main_v5 i := by
  obtain ⟨-, -, -, -, e0, e1, -⟩ := idx_facts t
  show V m c main_v5 (((cfg0.win 1).blk t).view.emb i) = _
  refine congrArg _ (funext fun a => Fin.ext ?_)
  match a with
  | ⟨0, _⟩ => show win0_1.index t (0 : Fin 2) * 2048 + 1 * (i 0).val = (i 0).val; omega
  | ⟨1, _⟩ => show win0_1.index t (1 : Fin 2) * 4096 + 1 * (i 1).val = (i 1).val; omega

theorem ladders_blk (c : Dev nD) (t : Fin cfg0.N) (i : S2048x18.Idx) : iblk m c 2 t i = V m c main_v8 i := by
  obtain ⟨-, -, -, -, -, -, e0, e1, -⟩ := idx_facts t
  show V m c main_v8 (((cfg0.win 2).blk t).view.emb i) = _
  refine congrArg _ (funext fun a => Fin.ext ?_)
  match a with
  | ⟨0, _⟩ => show win0_2.index t (0 : Fin 2) * 2048 + 1 * (i 0).val = (i 0).val; omega
  | ⟨1, _⟩ => show win0_2.index t (1 : Fin 2) * 18 + 1 * (i 1).val = (i 1).val; omega

theorem mix_blk (c : Dev nD) (t : Fin cfg0.N) (i : S3x2048.Idx) : iblk m c 3 t i = V m c main_v9 i := by
  obtain ⟨-, -, -, -, -, -, -, -, e0, e1⟩ := idx_facts t
  show V m c main_v9 (((cfg0.win 3).blk t).view.emb i) = _
  refine congrArg _ (funext fun a => Fin.ext ?_)
  match a with
  | ⟨0, _⟩ => show win0_3.index t (0 : Fin 2) * 3 + 1 * (i 0).val = (i 0).val; omega
  | ⟨1, _⟩ => show win0_3.index t (1 : Fin 2) * 2048 + 1 * (i 1).val = (i 1).val; omega

/-! ## What a point writes back -/

/-- Point `t` writes back block `t` of `flat` of the argument arrays. -/
theorem flushed_eq (c : Dev nD) (t : Fin cfg0.N) :
    (dats m 0 c).flushed 4 t = ((cfg0.win 4).blk t).view.read (Elt Ideal)
      (flat (m ((c : Thread nD τ).loc main_arg0)) (m ((c : Thread nD τ).loc main_arg1)) (m ((c : Thread nD τ).loc main_arg2))
        (m ((c : Thread nD τ).loc main_arg3)) (m ((c : Thread nD τ).loc main_arg4))) := by
  show (cfg0.win 4).cut (grid0.coords t) ((dats m 0 c).after 4 t) = _
  rw [after0_4]
  unfold out0_4
  rw [View.canon_unit_zero hz]
  simp only [View.ld_unit_zero (S := S256x2048) hz, View.ld_unit_zero (S := S2048x4096) hz, View.ld_unit_zero (S := S2048x18) hz,
    View.ld_unit_zero (S := S3x2048) hz]
  obtain ⟨e0, e1, -⟩ := idx_facts t
  funext j
  obtain ⟨p, o, rfl⟩ : ∃ (p : Fin 256) (o : Fin 2048), j = ix2 p o := ⟨j 0, j 1, eq_ix2 j⟩
  have he : ((cfg0.win 4).blk t).view.emb (ix2 p o) = ix2 (rowOf t p) o := by
    funext a; apply Fin.ext
    match a with
    | ⟨0, _⟩ => show win0_4.index t (0 : Fin 2) * 256 + 1 * p.val = t.val * 256 + p.val; omega
    | ⟨1, _⟩ => show win0_4.index t (1 : Fin 2) * 2048 + 1 * o.val = o.val; omega
  show k0_pay1 (F := Ideal) (k0_pay4 (iblk m c 0 t) (iblk m c 1 t))
      (k0_pay9 (k0_pay5 (iblk m c 0 t) (iblk m c 1 t) (iblk m c 2 t)) (k0_pay6 (iblk m c 0 t) (iblk m c 1 t) (iblk m c 2 t))
        (k0_pay7 (iblk m c 0 t) (iblk m c 1 t) (iblk m c 2 t)) (k0_pay8 (iblk m c 0 t) (iblk m c 1 t) (iblk m c 2 t)))
      (k0_pay10 (iblk m c 3 t)) (ix2 p o)
    = flat _ _ _ _ _ (((cfg0.win 4).blk t).view.emb (ix2 p o))
  rw [he]
  exact stored_eq_out (iblk m c 0 t) (iblk m c 1 t) (iblk m c 2 t) (iblk m c 3 t) p o
    (fun d => m ((c : Thread nD τ).loc main_arg0) (ix3 (rowB (rowOf t p)) (rowS (rowOf t p)) d))
    (fun o d => m ((c : Thread nD τ).loc main_arg1) (ix2 o d)) (fun o d => m ((c : Thread nD τ).loc main_arg2) (ix2 o d))
    (fun l k d => m ((c : Thread nD τ).loc main_arg3) (ix3 l k d)) (fun o l => m ((c : Thread nD τ).loc main_arg4) (ix2 o l))
    (fun k => rows_blk m c t p k)
    (fun k o => (fused_blk m c t _).trans (fused_left_at m c k o))
    (fun k d => (fused_blk m c t _).trans (fused_right_at m c k d))
    (fun d k l => (ladders_blk m c t _).trans (ladders_at m c d k l))
    (fun l o => (mix_blk m c t _).trans (mix_at m c l o))

/-! ## The blocks tile the rows -/

/-- An index of the array is in point `t`'s block iff each coordinate is in the block's range on its axis. -/
theorem mem_blk (t : Fin cfg0.N) (i : S8192x2048.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v10).slice (win0_4.rect t)).set ↔ _
  rw [View.set_slice_whole, Rect.mem_set_unit]
  exact Iff.rfl

/-- Row `r` lies in the block of point `r / 256`. -/
theorem cover (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  let t : Fin cfg0.N := ⟨(i 0).val / 256, lt_of_lt_of_eq (by omega : (i 0).val / 256 < 32) N_0.symm⟩
  obtain ⟨e0, e1, -⟩ := idx_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    have ht : t.val = (i 0).val / 256 := rfl
    omega
  | ⟨1, _⟩ =>
    show win0_4.index t (1 : Fin 2) * 2048 ≤ (i 1).val ∧ (i 1).val < win0_4.index t (1 : Fin 2) * 2048 + 2048
    omega

/-- The output array after the region. -/
theorem final (c : Dev nD) :
    (dats m 0 c).arrAt 4 cfg0.N
      = flat (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 4 _ (fun t _ => flushed_eq m c t) cover

end Cert.Ladder.Blocks

end
-- ==== Proof.KernelRun.lean ====
/-
  The kernel program's run with its result named: every weakly fair execution of @main ends with the result buffer at
  the ladder function of the argument arrays, and the argument arrays unchanged.

  After the region the output array holds the result as 8192 rows (`Blocks.final`); the one host operation after it
  reshapes those rows to `[4, 2048, 2048]`, and row `2048 b + s` is row `(b, s)`.
-/
import proofs.«170637_j68478958568093_2_alg».proof.Proof.Blocks
import Idealize.ShloMosaic.Lib.StableHlo.Run

set_option maxRecDepth 16384

noncomputable section

namespace Cert.Ladder.KernelRun

open Cert.KernelIdeal Cert.KernelIdeal.Gen Idealize.ShloMosaic Idealize.ShloMosaic.TcCoe Idealize.SL.Sem
  Idealize.ShloMosaic.StableHlo Idealize.ShloMosaic.ValueIdx Cert.Ladder Cert.Ladder.Prefix Cert.Ladder.Blocks

/-- The 8192 rows reshaped to `[4, 2048, 2048]` are the ladder function: row `2048 b + s` is row `(b, s)`. -/
theorem unflatten (x : S4x2048x2048.Idx → EReal) (U gate : S2048x2048.Idx → EReal) (lad : S3x6x2048.Idx → EReal) (V : S2048x3.Idx → EReal) :
    shapeCast S4x2048x2048 (flat x U gate lad V) Facts₀.shapeCasts_S8192x2048_S4x2048x2048 = G x U gate lad V := by
  funext i
  obtain ⟨b, s, o, rfl⟩ : ∃ (b : Fin 4) (s o : Fin 2048), i = ix3 b s o := ⟨i 0, i 1, i 2, eq_ix3 i⟩
  have hb := b.isLt; have hs := s.isLt
  let r : Fin 8192 := ⟨b.val * 2048 + s.val, by omega⟩
  refine (shapeCast_apply _ _ (ix3 b s o) (ix2 r o) (by
    rw [Shape.rowMajor_val_two, Shape.rowMajor_val_three]
    rfl)).trans ?_
  have eb : rowB r = b := Fin.ext (by show (b.val * 2048 + s.val) / 2048 = b.val; omega)
  have es : rowS r = s := Fin.ext (by show (b.val * 2048 + s.val) % 2048 = s.val; omega)
  show out (fun d => x (ix3 (rowB r) (rowS r) d)) _ _ _ _ o = out (fun d => x (ix3 b s d)) _ _ _ _ o
  rw [eb, es]

variable (m : (ℓ : Loc nD τ sig) → Buf (Elt Ideal) ℓ) (ρ : Dev nD → PrngReg)

/-- What the host operation after the region leaves in the result buffer. -/
theorem tail_eq (c : Dev nD) :
    Pipeline.afterTail₀ cfgs (dats m) 0 (V0 m) [hostOps1] c main_v11 = G (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v11) = _
  after_results
  exact (congrArg (fun v => shapeCast S4x2048x2048 v Facts₀.shapeCasts_S8192x2048_S4x2048x2048)
    ((Pipeline.withArrays_arr spec0 launch0.win.arr_inj c _ _ (4 : Fin 5)).trans (final m c))).trans (unflatten _ _ _ _ _)

/-- The frame run re-posted with the result named. -/
theorem run : θ_run defs (onTc (τ := τ) (main (F := Ideal))) ⟨m, fun _ => 0, ρ⟩ fun r => ∀ c : Dev nD,
      r.2.mem ((c.tc : Thread nD τ).loc main_v11) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Ladder.KernelRun

end
-- ==== Proof.RefOps.lean ====
/-
  The reference program's run, and its result as a composition of a few named stages.

  @main of the reference is a straight line of host operations: two contractions of the input with `U` and `gate`, the
  logistic written out as `1 / (1 + e^(-t))`, the gated input, one contraction with the ladder weights giving all
  eighteen coefficients of every row, six slices of it (one coefficient each), five guarded rungs (each `jnp.where` a
  pair of selects), the sum with coefficient 0, the contraction with `V` and the final sum. `ops` lists them in @main's
  order, each `jnp.where` call by its own lines over that call's buffers. Every weakly fair execution runs the list
  (`main_eq`, `StableHlo.run_seq`), so the result buffer ends at the list's fold over the launch contents, and that
  fold is `value` below: the same operations grouped into the stages the mathematics names.

  This module: the stages, and @main's operations as a list.
-/
import proofs.«170637_j68478958568093_2_alg».proof.Proof.Gen.ReferenceIdeal
import Idealize.ShloMosaic.Lib.StableHlo.Run

noncomputable section

namespace Cert.Ladder.RefRun

open Cert.ReferenceIdeal Cert.ReferenceIdeal.Facts₀ Idealize.ShloMosaic Idealize.ShloMosaic.TcCoe
  Idealize.SL.Sem Idealize.ShloMosaic.StableHlo

variable {F : FTy → Type} [FloatOps F]

/-! ## The stages -/

/-- A float word splat over the `[4, 2048, 3]` arrays the rungs work on. -/
def splat (w : BitVec 32) : FVec F S4x2048x3 .f32 := broadcastInDim S4x2048x3 ![] bcast_S_S4x2048x3 (constant S_ .f32 w)

/-- The word of 1.0 splat over the input's shape. -/
def ones : FVec F S4x2048x2048 .f32 := broadcastInDim S4x2048x2048 ![] bcast_S_S4x2048x2048 (constant S_ .f32 0x3F800000#32)

/-- The gated input: `1 / (1 + e^(-(x · gateᵀ)))` times `x`. -/
def gatedArr (x : FVec F S4x2048x2048 .f32) (gate : FVec F S2048x2048 .f32) : FVec F S4x2048x2048 .f32 :=
  mulf (Host.divf ones (addf ones (Host.exp (Host.negf (Host.dotGeneral dot_S4x2048x2048_S2048x2048_S4x2048x2048_2_1_01_0_n_n none x gate))))) x

/-- All coefficients: entry `(b, s, l, k)` is the gated row `(b, s)` against `lad[l, k, ·]`. -/
def coefArr (x : FVec F S4x2048x2048 .f32) (gate : FVec F S2048x2048 .f32) (lad : FVec F S3x6x2048 .f32) : FVec F S4x2048x3x6 .f32 :=
  Host.dotGeneral dot_S4x2048x2048_S3x6x2048_S4x2048x3x6_2_2_01_01_n_n none (gatedArr x gate) lad

/-- Coefficient 0 of every ladder. -/
def coef0 (a : FVec F S4x2048x3x6 .f32) : FVec F S4x2048x3 .f32 :=
  shapeCast _ (extractStridedSlice S4x2048x3x1 ![0, 0, 0, 0] a slices_S4x2048x3x6_S4x2048x3x1_0_0_0_0) shapeCasts_S4x2048x3x1_S4x2048x3

/-- Coefficients 1 to 5. -/
def rest (a : FVec F S4x2048x3x6 .f32) : FVec F S4x2048x3x5 .f32 :=
  extractStridedSlice S4x2048x3x5 ![0, 0, 0, 1] a slices_S4x2048x3x6_S4x2048x3x5_0_0_0_1

/-- One of them, by its position among the five. -/
def restAt4 (t : FVec F S4x2048x3x5 .f32) : FVec F S4x2048x3 .f32 :=
  shapeCast _ (extractStridedSlice S4x2048x3x1 ![0, 0, 0, 4] t slices_S4x2048x3x5_S4x2048x3x1_0_0_0_4) shapeCasts_S4x2048x3x1_S4x2048x3
def restAt3 (t : FVec F S4x2048x3x5 .f32) : FVec F S4x2048x3 .f32 :=
  shapeCast _ (extractStridedSlice S4x2048x3x1 ![0, 0, 0, 3] t slices_S4x2048x3x5_S4x2048x3x1_0_0_0_3) shapeCasts_S4x2048x3x1_S4x2048x3
def restAt2 (t : FVec F S4x2048x3x5 .f32) : FVec F S4x2048x3 .f32 :=
  shapeCast _ (extractStridedSlice S4x2048x3x1 ![0, 0, 0, 2] t slices_S4x2048x3x5_S4x2048x3x1_0_0_0_2) shapeCasts_S4x2048x3x1_S4x2048x3
def restAt1 (t : FVec F S4x2048x3x5 .f32) : FVec F S4x2048x3 .f32 :=
  shapeCast _ (extractStridedSlice S4x2048x3x1 ![0, 0, 0, 1] t slices_S4x2048x3x5_S4x2048x3x1_0_0_0_1) shapeCasts_S4x2048x3x1_S4x2048x3
def restAt0 (t : FVec F S4x2048x3x5 .f32) : FVec F S4x2048x3 .f32 :=
  shapeCast _ (extractStridedSlice S4x2048x3x1 ![0, 0, 0, 0] t slices_S4x2048x3x5_S4x2048x3x1_0_0_0_0) shapeCasts_S4x2048x3x1_S4x2048x3

/-- The pole guard on arrays: `d` unless `|d| < ε`, then `±ε` by the sign of `d` (the inner `jnp.where` passes its
    result through a conversion to its own type, the identity). -/
def guardArr (d : FVec F S4x2048x3 .f32) : FVec F S4x2048x3 .f32 :=
  select (cmpf .olt (Host.absf d) (splat 0x3C23D70A#32))
    (id (select (cmpf .oge d (splat 0x00000000#32)) (splat 0x3C23D70A#32) (splat 0xBC23D70A#32))) d

/-- One rung on arrays: `a / ⟦1 + f⟧`. -/
def rungArr (a f : FVec F S4x2048x3 .f32) : FVec F S4x2048x3 .f32 :=
  Host.divf a (guardArr (addf (splat 0x3F800000#32) f))

/-- The three ladder values of every row. -/
def ladderArr (a : FVec F S4x2048x3x6 .f32) : FVec F S4x2048x3 .f32 :=
  addf (coef0 a) (rungArr (restAt0 (rest a)) (rungArr (restAt1 (rest a)) (rungArr (restAt2 (rest a))
    (rungArr (restAt3 (rest a)) (rungArr (restAt4 (rest a)) (splat 0x00000000#32))))))

/-- The reference's result. -/
def value (x : FVec F S4x2048x2048 .f32) (U gate : FVec F S2048x2048 .f32) (lad : FVec F S3x6x2048 .f32) (V : FVec F S2048x3 .f32) :
    FVec F S4x2048x2048 .f32 :=
  addf (Host.dotGeneral dot_S4x2048x2048_S2048x2048_S4x2048x2048_2_1_01_0_n_n none x U) (Host.dotGeneral dot_S4x2048x3_S2048x3_S4x2048x2048_2_1_01_0_n_n none (ladderArr (coefArr x gate lad)) V)

/-! ## @main as a list of operations -/

/-- @main's operations, in order; a `jnp.where` call stands as its own lines over the call's buffers. -/
abbrev ops : List (HloOp τ sig (Elt F)) :=
  [ binary main_arg0 main_arg1 main_v0 ((fun l r => Host.dotGeneral dot_S4x2048x2048_S2048x2048_S4x2048x2048_2_1_01_0_n_n none l r) : (⟨S4x2048x2048, .f32⟩ : BufTy).Contents (Elt F) → (⟨S2048x2048, .f32⟩ : BufTy).Contents (Elt F) → (⟨S4x2048x2048, .f32⟩ : BufTy).Contents (Elt F)),
    binary main_arg0 main_arg2 main_v1 ((fun l r => Host.dotGeneral dot_S4x2048x2048_S2048x2048_S4x2048x2048_2_1_01_0_n_n none l r) : (⟨S4x2048x2048, .f32⟩ : BufTy).Contents (Elt F) → (⟨S2048x2048, .f32⟩ : BufTy).Contents (Elt F) → (⟨S4x2048x2048, .f32⟩ : BufTy).Contents (Elt F)),
    unary main_v1 main_v2 (Host.negf : (⟨S4x2048x2048, .f32⟩ : BufTy).Contents (Elt F) → (⟨S4x2048x2048, .f32⟩ : BufTy).Contents (Elt F)),
    unary main_v2 main_v3 (Host.exp : (⟨S4x2048x2048, .f32⟩ : BufTy).Contents (Elt F) → (⟨S4x2048x2048, .f32⟩ : BufTy).Contents (Elt F)),
    nullary main_cst (constant S_ .f32 0x3F800000#32),
    unary main_cst main_v4 (broadcastInDim S4x2048x2048 ![] bcast_S_S4x2048x2048 : (⟨S_, .f32⟩ : BufTy).Contents (Elt F) → (⟨S4x2048x2048, .f32⟩ : BufTy).Contents (Elt F)),
    binary main_v4 main_v3 main_v5 (addf : (⟨S4x2048x2048, .f32⟩ : BufTy).Contents (Elt F) → (⟨S4x2048x2048, .f32⟩ : BufTy).Contents (Elt F) → (⟨S4x2048x2048, .f32⟩ : BufTy).Contents (Elt F)),
    nullary main_cst_0 (constant S_ .f32 0x3F800000#32),
    unary main_cst_0 main_v6 (broadcastInDim S4x2048x2048 ![] bcast_S_S4x2048x2048 : (⟨S_, .f32⟩ : BufTy).Contents (Elt F) → (⟨S4x2048x2048, .f32⟩ : BufTy).Contents (Elt F)),
    binary main_v6 main_v5 main_v7 (Host.divf : (⟨S4x2048x2048, .f32⟩ : BufTy).Contents (Elt F) → (⟨S4x2048x2048, .f32⟩ : BufTy).Contents (Elt F) → (⟨S4x2048x2048, .f32⟩ : BufTy).Contents (Elt F)),
    binary main_v7 main_arg0 main_v8 (mulf : (⟨S4x2048x2048, .f32⟩ : BufTy).Contents (Elt F) → (⟨S4x2048x2048, .f32⟩ : BufTy).Contents (Elt F) → (⟨S4x2048x2048, .f32⟩ : BufTy).Contents (Elt F)),
    binary main_v8 main_arg3 main_v9 ((fun l r => Host.dotGeneral dot_S4x2048x2048_S3x6x2048_S4x2048x3x6_2_2_01_01_n_n none l r) : (⟨S4x2048x2048, .f32⟩ : BufTy).Contents (Elt F) → (⟨S3x6x2048, .f32⟩ : BufTy).Contents (Elt F) → (⟨S4x2048x3x6, .f32⟩ : BufTy).Contents (Elt F)),
    unary main_v9 main_v10 ((extractStridedSlice S4x2048x3x1 ![0, 0, 0, 0] · slices_S4x2048x3x6_S4x2048x3x1_0_0_0_0) : (⟨S4x2048x3x6, .f32⟩ : BufTy).Contents (Elt F) → (⟨S4x2048x3x1, .f32⟩ : BufTy).Contents (Elt F)),
    reshape main_v10 main_v11 rfl shapeCasts_S4x2048x3x1_S4x2048x3,
    unary main_v9 main_v12 ((extractStridedSlice S4x2048x3x5 ![0, 0, 0, 1] · slices_S4x2048x3x6_S4x2048x3x5_0_0_0_1) : (⟨S4x2048x3x6, .f32⟩ : BufTy).Contents (Elt F) → (⟨S4x2048x3x5, .f32⟩ : BufTy).Contents (Elt F)),
    nullary main_cst_1 (constant S_ .f32 0x00000000#32),
    unary main_cst_1 main_v13 (broadcastInDim S4x2048x3 ![] bcast_S_S4x2048x3 : (⟨S_, .f32⟩ : BufTy).Contents (Elt F) → (⟨S4x2048x3, .f32⟩ : BufTy).Contents (Elt F)),
    nullary main_cst_2 (constant S_ .f32 0x3F800000#32),
    unary main_cst_2 main_v14 (broadcastInDim S4x2048x3 ![] bcast_S_S4x2048x3 : (⟨S_, .f32⟩ : BufTy).Contents (Elt F) → (⟨S4x2048x3, .f32⟩ : BufTy).Contents (Elt F)),
    binary main_v14 main_v13 main_v15 (addf : (⟨S4x2048x3, .f32⟩ : BufTy).Contents (Elt F) → (⟨S4x2048x3, .f32⟩ : BufTy).Contents (Elt F) → (⟨S4x2048x3, .f32⟩ : BufTy).Contents (Elt F)),
    unary main_v15 main_v16 (Host.absf : (⟨S4x2048x3, .f32⟩ : BufTy).Contents (Elt F) → (⟨S4x2048x3, .f32⟩ : BufTy).Contents (Elt F)),
    nullary main_cst_3 (constant S_ .f32 0x3C23D70A#32),
    unary main_cst_3 main_v17 (broadcastInDim S4x2048x3 ![] bcast_S_S4x2048x3 : (⟨S_, .f32⟩ : BufTy).Contents (Elt F) → (⟨S4x2048x3, .f32⟩ : BufTy).Contents (Elt F)),
    binary main_v16 main_v17 main_v18 (cmpf .olt : (⟨S4x2048x3, .f32⟩ : BufTy).Contents (Elt F) → (⟨S4x2048x3, .f32⟩ : BufTy).Contents (Elt F) → (⟨S4x2048x3, .i1⟩ : BufTy).Contents (Elt F)),
    nullary main_cst_4 (constant S_ .f32 0x00000000#32),
    unary main_cst_4 main_v19 (broadcastInDim S4x2048x3 ![] bcast_S_S4x2048x3 : (⟨S_, .f32⟩ : BufTy).Contents (Elt F) → (⟨S4x2048x3, .f32⟩ : BufTy).Contents (Elt F)),
    binary main_v15 main_v19 main_v20 (cmpf .oge : (⟨S4x2048x3, .f32⟩ : BufTy).Contents (Elt F) → (⟨S4x2048x3, .f32⟩ : BufTy).Contents (Elt F) → (⟨S4x2048x3, .i1⟩ : BufTy).Contents (Elt F)),
    nullary main_cst_5 (constant S_ .f32 0x3C23D70A#32),
    nullary main_cst_6 (constant S_ .f32 0xBC23D70A#32),
    TRef.unary (TRef.of (T := ⟨S_, .f32⟩) main_cst_5) main_call0.v0 (broadcastInDim S4x2048x3 ![] bcast_S_S4x2048x3),
    TRef.unary (TRef.of (T := ⟨S_, .f32⟩) main_cst_6) main_call0.v1 (broadcastInDim S4x2048x3 ![] bcast_S_S4x2048x3),
    TRef.ternary (TRef.of (T := ⟨S4x2048x3, .i1⟩) main_v20) main_call0.v0 main_call0.v1 main_call0.v2 select,
    TRef.unary (TRef.of (T := ⟨S4x2048x3, .f32⟩) main_v21) main_call1.v0 id,
    TRef.ternary (TRef.of (T := ⟨S4x2048x3, .i1⟩) main_v18) main_call1.v0 (TRef.of (T := ⟨S4x2048x3, .f32⟩) main_v15) main_call1.v1 select,
    unary main_v12 main_v23 ((extractStridedSlice S4x2048x3x1 ![0, 0, 0, 4] · slices_S4x2048x3x5_S4x2048x3x1_0_0_0_4) : (⟨S4x2048x3x5, .f32⟩ : BufTy).Contents (Elt F) → (⟨S4x2048x3x1, .f32⟩ : BufTy).Contents (Elt F)),
    reshape main_v23 main_v24 rfl shapeCasts_S4x2048x3x1_S4x2048x3,
    binary main_v24 main_v22 main_v25 (Host.divf : (⟨S4x2048x3, .f32⟩ : BufTy).Contents (Elt F) → (⟨S4x2048x3, .f32⟩ : BufTy).Contents (Elt F) → (⟨S4x2048x3, .f32⟩ : BufTy).Contents (Elt F)),
    nullary main_cst_7 (constant S_ .f32 0x3F800000#32),
    unary main_cst_7 main_v26 (broadcastInDim S4x2048x3 ![] bcast_S_S4x2048x3 : (⟨S_, .f32⟩ : BufTy).Contents (Elt F) → (⟨S4x2048x3, .f32⟩ : BufTy).Contents (Elt F)),
    binary main_v26 main_v25 main_v27 (addf : (⟨S4x2048x3, .f32⟩ : BufTy).Contents (Elt F) → (⟨S4x2048x3, .f32⟩ : BufTy).Contents (Elt F) → (⟨S4x2048x3, .f32⟩ : BufTy).Contents (Elt F)),
    unary main_v27 main_v28 (Host.absf : (⟨S4x2048x3, .f32⟩ : BufTy).Contents (Elt F) → (⟨S4x2048x3, .f32⟩ : BufTy).Contents (Elt F)),
    nullary main_cst_8 (constant S_ .f32 0x3C23D70A#32),
    unary main_cst_8 main_v29 (broadcastInDim S4x2048x3 ![] bcast_S_S4x2048x3 : (⟨S_, .f32⟩ : BufTy).Contents (Elt F) → (⟨S4x2048x3, .f32⟩ : BufTy).Contents (Elt F)),
    binary main_v28 main_v29 main_v30 (cmpf .olt : (⟨S4x2048x3, .f32⟩ : BufTy).Contents (Elt F) → (⟨S4x2048x3, .f32⟩ : BufTy).Contents (Elt F) → (⟨S4x2048x3, .i1⟩ : BufTy).Contents (Elt F)),
    nullary main_cst_9 (constant S_ .f32 0x00000000#32),
    unary main_cst_9 main_v31 (broadcastInDim S4x2048x3 ![] bcast_S_S4x2048x3 : (⟨S_, .f32⟩ : BufTy).Contents (Elt F) → (⟨S4x2048x3, .f32⟩ : BufTy).Contents (Elt F)),
    binary main_v27 main_v31 main_v32 (cmpf .oge : (⟨S4x2048x3, .f32⟩ : BufTy).Contents (Elt F) → (⟨S4x2048x3, .f32⟩ : BufTy).Contents (Elt F) → (⟨S4x2048x3, .i1⟩ : BufTy).Contents (Elt F)),
    nullary main_cst_10 (constant S_ .f32 0x3C23D70A#32),
    nullary main_cst_11 (constant S_ .f32 0xBC23D70A#32),
    TRef.unary (TRef.of (T := ⟨S_, .f32⟩) main_cst_10) main_call2.v0 (broadcastInDim S4x2048x3 ![] bcast_S_S4x2048x3),
    TRef.unary (TRef.of (T := ⟨S_, .f32⟩) main_cst_11) main_call2.v1 (broadcastInDim S4x2048x3 ![] bcast_S_S4x2048x3),
    TRef.ternary (TRef.of (T := ⟨S4x2048x3, .i1⟩) main_v32) main_call2.v0 main_call2.v1 main_call2.v2 select,
    TRef.unary (TRef.of (T := ⟨S4x2048x3, .f32⟩) main_v33) main_call3.v0 id,
    TRef.ternary (TRef.of (T := ⟨S4x2048x3, .i1⟩) main_v30) main_call3.v0 (TRef.of (T := ⟨S4x2048x3, .f32⟩) main_v27) main_call3.v1 select,
    unary main_v12 main_v35 ((extractStridedSlice S4x2048x3x1 ![0, 0, 0, 3] · slices_S4x2048x3x5_S4x2048x3x1_0_0_0_3) : (⟨S4x2048x3x5, .f32⟩ : BufTy).Contents (Elt F) → (⟨S4x2048x3x1, .f32⟩ : BufTy).Contents (Elt F)),
    reshape main_v35 main_v36 rfl shapeCasts_S4x2048x3x1_S4x2048x3,
    binary main_v36 main_v34 main_v37 (Host.divf : (⟨S4x2048x3, .f32⟩ : BufTy).Contents (Elt F) → (⟨S4x2048x3, .f32⟩ : BufTy).Contents (Elt F) → (⟨S4x2048x3, .f32⟩ : BufTy).Contents (Elt F)),
    nullary main_cst_12 (constant S_ .f32 0x3F800000#32),
    unary main_cst_12 main_v38 (broadcastInDim S4x2048x3 ![] bcast_S_S4x2048x3 : (⟨S_, .f32⟩ : BufTy).Contents (Elt F) → (⟨S4x2048x3, .f32⟩ : BufTy).Contents (Elt F)),
    binary main_v38 main_v37 main_v39 (addf : (⟨S4x2048x3, .f32⟩ : BufTy).Contents (Elt F) → (⟨S4x2048x3, .f32⟩ : BufTy).Contents (Elt F) → (⟨S4x2048x3, .f32⟩ : BufTy).Contents (Elt F)),
    unary main_v39 main_v40 (Host.absf : (⟨S4x2048x3, .f32⟩ : BufTy).Contents (Elt F) → (⟨S4x2048x3, .f32⟩ : BufTy).Contents (Elt F)),
    nullary main_cst_13 (constant S_ .f32 0x3C23D70A#32),
    unary main_cst_13 main_v41 (broadcastInDim S4x2048x3 ![] bcast_S_S4x2048x3 : (⟨S_, .f32⟩ : BufTy).Contents (Elt F) → (⟨S4x2048x3, .f32⟩ : BufTy).Contents (Elt F)),
    binary main_v40 main_v41 main_v42 (cmpf .olt : (⟨S4x2048x3, .f32⟩ : BufTy).Contents (Elt F) → (⟨S4x2048x3, .f32⟩ : BufTy).Contents (Elt F) → (⟨S4x2048x3, .i1⟩ : BufTy).Contents (Elt F)),
    nullary main_cst_14 (constant S_ .f32 0x00000000#32),
    unary main_cst_14 main_v43 (broadcastInDim S4x2048x3 ![] bcast_S_S4x2048x3 : (⟨S_, .f32⟩ : BufTy).Contents (Elt F) → (⟨S4x2048x3, .f32⟩ : BufTy).Contents (Elt F)),
    binary main_v39 main_v43 main_v44 (cmpf .oge : (⟨S4x2048x3, .f32⟩ : BufTy).Contents (Elt F) → (⟨S4x2048x3, .f32⟩ : BufTy).Contents (Elt F) → (⟨S4x2048x3, .i1⟩ : BufTy).Contents (Elt F)),
    nullary main_cst_15 (constant S_ .f32 0x3C23D70A#32),
    nullary main_cst_16 (constant S_ .f32 0xBC23D70A#32),
    TRef.unary (TRef.of (T := ⟨S_, .f32⟩) main_cst_15) main_call4.v0 (broadcastInDim S4x2048x3 ![] bcast_S_S4x2048x3),
    TRef.unary (TRef.of (T := ⟨S_, .f32⟩) main_cst_16) main_call4.v1 (broadcastInDim S4x2048x3 ![] bcast_S_S4x2048x3),
    TRef.ternary (TRef.of (T := ⟨S4x2048x3, .i1⟩) main_v44) main_call4.v0 main_call4.v1 main_call4.v2 select,
    TRef.unary (TRef.of (T := ⟨S4x2048x3, .f32⟩) main_v45) main_call5.v0 id,
    TRef.ternary (TRef.of (T := ⟨S4x2048x3, .i1⟩) main_v42) main_call5.v0 (TRef.of (T := ⟨S4x2048x3, .f32⟩) main_v39) main_call5.v1 select,
    unary main_v12 main_v47 ((extractStridedSlice S4x2048x3x1 ![0, 0, 0, 2] · slices_S4x2048x3x5_S4x2048x3x1_0_0_0_2) : (⟨S4x2048x3x5, .f32⟩ : BufTy).Contents (Elt F) → (⟨S4x2048x3x1, .f32⟩ : BufTy).Contents (Elt F)),
    reshape main_v47 main_v48 rfl shapeCasts_S4x2048x3x1_S4x2048x3,
    binary main_v48 main_v46 main_v49 (Host.divf : (⟨S4x2048x3, .f32⟩ : BufTy).Contents (Elt F) → (⟨S4x2048x3, .f32⟩ : BufTy).Contents (Elt F) → (⟨S4x2048x3, .f32⟩ : BufTy).Contents (Elt F)),
    nullary main_cst_17 (constant S_ .f32 0x3F800000#32),
    unary main_cst_17 main_v50 (broadcastInDim S4x2048x3 ![] bcast_S_S4x2048x3 : (⟨S_, .f32⟩ : BufTy).Contents (Elt F) → (⟨S4x2048x3, .f32⟩ : BufTy).Contents (Elt F)),
    binary main_v50 main_v49 main_v51 (addf : (⟨S4x2048x3, .f32⟩ : BufTy).Contents (Elt F) → (⟨S4x2048x3, .f32⟩ : BufTy).Contents (Elt F) → (⟨S4x2048x3, .f32⟩ : BufTy).Contents (Elt F)),
    unary main_v51 main_v52 (Host.absf : (⟨S4x2048x3, .f32⟩ : BufTy).Contents (Elt F) → (⟨S4x2048x3, .f32⟩ : BufTy).Contents (Elt F)),
    nullary main_cst_18 (constant S_ .f32 0x3C23D70A#32),
    unary main_cst_18 main_v53 (broadcastInDim S4x2048x3 ![] bcast_S_S4x2048x3 : (⟨S_, .f32⟩ : BufTy).Contents (Elt F) → (⟨S4x2048x3, .f32⟩ : BufTy).Contents (Elt F)),
    binary main_v52 main_v53 main_v54 (cmpf .olt : (⟨S4x2048x3, .f32⟩ : BufTy).Contents (Elt F) → (⟨S4x2048x3, .f32⟩ : BufTy).Contents (Elt F) → (⟨S4x2048x3, .i1⟩ : BufTy).Contents (Elt F)),
    nullary main_cst_19 (constant S_ .f32 0x00000000#32),
    unary main_cst_19 main_v55 (broadcastInDim S4x2048x3 ![] bcast_S_S4x2048x3 : (⟨S_, .f32⟩ : BufTy).Contents (Elt F) → (⟨S4x2048x3, .f32⟩ : BufTy).Contents (Elt F)),
    binary main_v51 main_v55 main_v56 (cmpf .oge : (⟨S4x2048x3, .f32⟩ : BufTy).Contents (Elt F) → (⟨S4x2048x3, .f32⟩ : BufTy).Contents (Elt F) → (⟨S4x2048x3, .i1⟩ : BufTy).Contents (Elt F)),
    nullary main_cst_20 (constant S_ .f32 0x3C23D70A#32),
    nullary main_cst_21 (constant S_ .f32 0xBC23D70A#32),
    TRef.unary (TRef.of (T := ⟨S_, .f32⟩) main_cst_20) main_call6.v0 (broadcastInDim S4x2048x3 ![] bcast_S_S4x2048x3),
    TRef.unary (TRef.of (T := ⟨S_, .f32⟩) main_cst_21) main_call6.v1 (broadcastInDim S4x2048x3 ![] bcast_S_S4x2048x3),
    TRef.ternary (TRef.of (T := ⟨S4x2048x3, .i1⟩) main_v56) main_call6.v0 main_call6.v1 main_call6.v2 select,
    TRef.unary (TRef.of (T := ⟨S4x2048x3, .f32⟩) main_v57) main_call7.v0 id,
    TRef.ternary (TRef.of (T := ⟨S4x2048x3, .i1⟩) main_v54) main_call7.v0 (TRef.of (T := ⟨S4x2048x3, .f32⟩) main_v51) main_call7.v1 select,
    unary main_v12 main_v59 ((extractStridedSlice S4x2048x3x1 ![0, 0, 0, 1] · slices_S4x2048x3x5_S4x2048x3x1_0_0_0_1) : (⟨S4x2048x3x5, .f32⟩ : BufTy).Contents (Elt F) → (⟨S4x2048x3x1, .f32⟩ : BufTy).Contents (Elt F)),
    reshape main_v59 main_v60 rfl shapeCasts_S4x2048x3x1_S4x2048x3,
    binary main_v60 main_v58 main_v61 (Host.divf : (⟨S4x2048x3, .f32⟩ : BufTy).Contents (Elt F) → (⟨S4x2048x3, .f32⟩ : BufTy).Contents (Elt F) → (⟨S4x2048x3, .f32⟩ : BufTy).Contents (Elt F)),
    nullary main_cst_22 (constant S_ .f32 0x3F800000#32),
    unary main_cst_22 main_v62 (broadcastInDim S4x2048x3 ![] bcast_S_S4x2048x3 : (⟨S_, .f32⟩ : BufTy).Contents (Elt F) → (⟨S4x2048x3, .f32⟩ : BufTy).Contents (Elt F)),
    binary main_v62 main_v61 main_v63 (addf : (⟨S4x2048x3, .f32⟩ : BufTy).Contents (Elt F) → (⟨S4x2048x3, .f32⟩ : BufTy).Contents (Elt F) → (⟨S4x2048x3, .f32⟩ : BufTy).Contents (Elt F)),
    unary main_v63 main_v64 (Host.absf : (⟨S4x2048x3, .f32⟩ : BufTy).Contents (Elt F) → (⟨S4x2048x3, .f32⟩ : BufTy).Contents (Elt F)),
    nullary main_cst_23 (constant S_ .f32 0x3C23D70A#32),
    unary main_cst_23 main_v65 (broadcastInDim S4x2048x3 ![] bcast_S_S4x2048x3 : (⟨S_, .f32⟩ : BufTy).Contents (Elt F) → (⟨S4x2048x3, .f32⟩ : BufTy).Contents (Elt F)),
    binary main_v64 main_v65 main_v66 (cmpf .olt : (⟨S4x2048x3, .f32⟩ : BufTy).Contents (Elt F) → (⟨S4x2048x3, .f32⟩ : BufTy).Contents (Elt F) → (⟨S4x2048x3, .i1⟩ : BufTy).Contents (Elt F)),
    nullary main_cst_24 (constant S_ .f32 0x00000000#32),
    unary main_cst_24 main_v67 (broadcastInDim S4x2048x3 ![] bcast_S_S4x2048x3 : (⟨S_, .f32⟩ : BufTy).Contents (Elt F) → (⟨S4x2048x3, .f32⟩ : BufTy).Contents (Elt F)),
    binary main_v63 main_v67 main_v68 (cmpf .oge : (⟨S4x2048x3, .f32⟩ : BufTy).Contents (Elt F) → (⟨S4x2048x3, .f32⟩ : BufTy).Contents (Elt F) → (⟨S4x2048x3, .i1⟩ : BufTy).Contents (Elt F)),
    nullary main_cst_25 (constant S_ .f32 0x3C23D70A#32),
    nullary main_cst_26 (constant S_ .f32 0xBC23D70A#32),
    TRef.unary (TRef.of (T := ⟨S_, .f32⟩) main_cst_25) main_call8.v0 (broadcastInDim S4x2048x3 ![] bcast_S_S4x2048x3),
    TRef.unary (TRef.of (T := ⟨S_, .f32⟩) main_cst_26) main_call8.v1 (broadcastInDim S4x2048x3 ![] bcast_S_S4x2048x3),
    TRef.ternary (TRef.of (T := ⟨S4x2048x3, .i1⟩) main_v68) main_call8.v0 main_call8.v1 main_call8.v2 select,
    TRef.unary (TRef.of (T := ⟨S4x2048x3, .f32⟩) main_v69) main_call9.v0 id,
    TRef.ternary (TRef.of (T := ⟨S4x2048x3, .i1⟩) main_v66) main_call9.v0 (TRef.of (T := ⟨S4x2048x3, .f32⟩) main_v63) main_call9.v1 select,
    unary main_v12 main_v71 ((extractStridedSlice S4x2048x3x1 ![0, 0, 0, 0] · slices_S4x2048x3x5_S4x2048x3x1_0_0_0_0) : (⟨S4x2048x3x5, .f32⟩ : BufTy).Contents (Elt F) → (⟨S4x2048x3x1, .f32⟩ : BufTy).Contents (Elt F)),
    reshape main_v71 main_v72 rfl shapeCasts_S4x2048x3x1_S4x2048x3,
    binary main_v72 main_v70 main_v73 (Host.divf : (⟨S4x2048x3, .f32⟩ : BufTy).Contents (Elt F) → (⟨S4x2048x3, .f32⟩ : BufTy).Contents (Elt F) → (⟨S4x2048x3, .f32⟩ : BufTy).Contents (Elt F)),
    binary main_v11 main_v73 main_v74 (addf : (⟨S4x2048x3, .f32⟩ : BufTy).Contents (Elt F) → (⟨S4x2048x3, .f32⟩ : BufTy).Contents (Elt F) → (⟨S4x2048x3, .f32⟩ : BufTy).Contents (Elt F)),
    binary main_v74 main_arg4 main_v75 ((fun l r => Host.dotGeneral dot_S4x2048x3_S2048x3_S4x2048x2048_2_1_01_0_n_n none l r) : (⟨S4x2048x3, .f32⟩ : BufTy).Contents (Elt F) → (⟨S2048x3, .f32⟩ : BufTy).Contents (Elt F) → (⟨S4x2048x2048, .f32⟩ : BufTy).Contents (Elt F)),
    binary main_v0 main_v75 main_v76 (addf : (⟨S4x2048x2048, .f32⟩ : BufTy).Contents (Elt F) → (⟨S4x2048x2048, .f32⟩ : BufTy).Contents (Elt F) → (⟨S4x2048x2048, .f32⟩ : BufTy).Contents (Elt F)) ]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig :=
  ⟨binary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    unary_bufs_sub .., reshape_bufs_sub .., unary_bufs_sub .., nullary_bufs_sub .., unary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., nullary_bufs_sub .., nullary_bufs_sub .., unary_bufs_sub ..,
    unary_bufs_sub .., ternary_bufs_sub .., unary_bufs_sub .., ternary_bufs_sub .., unary_bufs_sub .., reshape_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., nullary_bufs_sub ..,
    nullary_bufs_sub .., unary_bufs_sub .., unary_bufs_sub .., ternary_bufs_sub .., unary_bufs_sub .., ternary_bufs_sub ..,
    unary_bufs_sub .., reshape_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., nullary_bufs_sub .., nullary_bufs_sub .., unary_bufs_sub .., unary_bufs_sub .., ternary_bufs_sub ..,
    unary_bufs_sub .., ternary_bufs_sub .., unary_bufs_sub .., reshape_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., nullary_bufs_sub .., nullary_bufs_sub .., unary_bufs_sub ..,
    unary_bufs_sub .., ternary_bufs_sub .., unary_bufs_sub .., ternary_bufs_sub .., unary_bufs_sub .., reshape_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., nullary_bufs_sub ..,
    nullary_bufs_sub .., unary_bufs_sub .., unary_bufs_sub .., ternary_bufs_sub .., unary_bufs_sub .., ternary_bufs_sub ..,
    unary_bufs_sub .., reshape_bufs_sub .., binary_bufs_sub .., binary_bufs_sub .., binary_bufs_sub .., binary_bufs_sub ..⟩

end Cert.Ladder.RefRun

end
-- ==== Proof.RefMain.lean ====
/-
  The reference's @main is the straight line of its operations.
-/
import proofs.«170637_j68478958568093_2_alg».proof.Proof.RefOps

noncomputable section

namespace Cert.Ladder.RefRun

open Cert.ReferenceIdeal Cert.ReferenceIdeal.Facts₀ Idealize.ShloMosaic Idealize.ShloMosaic.TcCoe
  Idealize.SL.Sem Idealize.ShloMosaic.StableHlo

variable {F : FTy → Type} [FloatOps F]

set_option maxRecDepth 16384 in
set_option maxHeartbeats 4000000 in
/-- @main is that straight line: its two halves and the two outlined functions unfolded at their calls, sequencing
    reassociated. -/
theorem main_eq (c : Dev nD) : main (F := F) c = seq ops := by
  simp only [main, main_part0, main_part1, fn_where.body, fn_where_0.body, seq, bind_assoc, pure_bind]

end Cert.Ladder.RefRun

end
-- ==== Proof.RefFold.lean ====
/-
  The fold of the reference's operations at the result buffer is `value` of the arguments.

  The list is cut where the mathematics cuts it: the head (the two contractions with `U` and `gate`, the gated input, the
  coefficients and their two slices), the five rungs from the innermost out, and the tail (the sum with coefficient 0,
  the contraction with `V`, the final sum). Each piece is read from ANY contents `W` of the buffers: what it leaves in
  its result buffer is one stage applied to what `W` holds in the buffers it reads, and it leaves the buffers of the
  earlier pieces alone. A rung therefore sees the rung inside it as one value, whatever that value is, and the pieces
  compose by `after_append`.
-/
import proofs.«170637_j68478958568093_2_alg».proof.Proof.RefOps

noncomputable section

namespace Cert.Ladder.RefRun

open Cert.ReferenceIdeal Cert.ReferenceIdeal.Facts₀ Idealize.ShloMosaic Idealize.ShloMosaic.TcCoe
  Idealize.SL.Sem Idealize.ShloMosaic.StableHlo

variable {F : FTy → Type} [FloatOps F]

/-- Operations run one list after the other are the concatenation run as one. -/
theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-! ## The pieces -/

abbrev opsHead : List (HloOp τ sig (Elt F)) :=
  [ binary main_arg0 main_arg1 main_v0 ((fun l r => Host.dotGeneral dot_S4x2048x2048_S2048x2048_S4x2048x2048_2_1_01_0_n_n none l r) : (⟨S4x2048x2048, .f32⟩ : BufTy).Contents (Elt F) → (⟨S2048x2048, .f32⟩ : BufTy).Contents (Elt F) → (⟨S4x2048x2048, .f32⟩ : BufTy).Contents (Elt F)),
    binary main_arg0 main_arg2 main_v1 ((fun l r => Host.dotGeneral dot_S4x2048x2048_S2048x2048_S4x2048x2048_2_1_01_0_n_n none l r) : (⟨S4x2048x2048, .f32⟩ : BufTy).Contents (Elt F) → (⟨S2048x2048, .f32⟩ : BufTy).Contents (Elt F) → (⟨S4x2048x2048, .f32⟩ : BufTy).Contents (Elt F)),
    unary main_v1 main_v2 (Host.negf : (⟨S4x2048x2048, .f32⟩ : BufTy).Contents (Elt F) → (⟨S4x2048x2048, .f32⟩ : BufTy).Contents (Elt F)),
    unary main_v2 main_v3 (Host.exp : (⟨S4x2048x2048, .f32⟩ : BufTy).Contents (Elt F) → (⟨S4x2048x2048, .f32⟩ : BufTy).Contents (Elt F)),
    nullary main_cst (constant S_ .f32 0x3F800000#32),
    unary main_cst main_v4 (broadcastInDim S4x2048x2048 ![] bcast_S_S4x2048x2048 : (⟨S_, .f32⟩ : BufTy).Contents (Elt F) → (⟨S4x2048x2048, .f32⟩ : BufTy).Contents (Elt F)),
    binary main_v4 main_v3 main_v5 (addf : (⟨S4x2048x2048, .f32⟩ : BufTy).Contents (Elt F) → (⟨S4x2048x2048, .f32⟩ : BufTy).Contents (Elt F) → (⟨S4x2048x2048, .f32⟩ : BufTy).Contents (Elt F)),
    nullary main_cst_0 (constant S_ .f32 0x3F800000#32),
    unary main_cst_0 main_v6 (broadcastInDim S4x2048x2048 ![] bcast_S_S4x2048x2048 : (⟨S_, .f32⟩ : BufTy).Contents (Elt F) → (⟨S4x2048x2048, .f32⟩ : BufTy).Contents (Elt F)),
    binary main_v6 main_v5 main_v7 (Host.divf : (⟨S4x2048x2048, .f32⟩ : BufTy).Contents (Elt F) → (⟨S4x2048x2048, .f32⟩ : BufTy).Contents (Elt F) → (⟨S4x2048x2048, .f32⟩ : BufTy).Contents (Elt F)),
    binary main_v7 main_arg0 main_v8 (mulf : (⟨S4x2048x2048, .f32⟩ : BufTy).Contents (Elt F) → (⟨S4x2048x2048, .f32⟩ : BufTy).Contents (Elt F) → (⟨S4x2048x2048, .f32⟩ : BufTy).Contents (Elt F)),
    binary main_v8 main_arg3 main_v9 ((fun l r => Host.dotGeneral dot_S4x2048x2048_S3x6x2048_S4x2048x3x6_2_2_01_01_n_n none l r) : (⟨S4x2048x2048, .f32⟩ : BufTy).Contents (Elt F) → (⟨S3x6x2048, .f32⟩ : BufTy).Contents (Elt F) → (⟨S4x2048x3x6, .f32⟩ : BufTy).Contents (Elt F)),
    unary main_v9 main_v10 ((extractStridedSlice S4x2048x3x1 ![0, 0, 0, 0] · slices_S4x2048x3x6_S4x2048x3x1_0_0_0_0) : (⟨S4x2048x3x6, .f32⟩ : BufTy).Contents (Elt F) → (⟨S4x2048x3x1, .f32⟩ : BufTy).Contents (Elt F)),
    reshape main_v10 main_v11 rfl shapeCasts_S4x2048x3x1_S4x2048x3,
    unary main_v9 main_v12 ((extractStridedSlice S4x2048x3x5 ![0, 0, 0, 1] · slices_S4x2048x3x6_S4x2048x3x5_0_0_0_1) : (⟨S4x2048x3x6, .f32⟩ : BufTy).Contents (Elt F) → (⟨S4x2048x3x5, .f32⟩ : BufTy).Contents (Elt F)) ]

abbrev opsR5 : List (HloOp τ sig (Elt F)) :=
  [ nullary main_cst_1 (constant S_ .f32 0x00000000#32),
    unary main_cst_1 main_v13 (broadcastInDim S4x2048x3 ![] bcast_S_S4x2048x3 : (⟨S_, .f32⟩ : BufTy).Contents (Elt F) → (⟨S4x2048x3, .f32⟩ : BufTy).Contents (Elt F)),
    nullary main_cst_2 (constant S_ .f32 0x3F800000#32),
    unary main_cst_2 main_v14 (broadcastInDim S4x2048x3 ![] bcast_S_S4x2048x3 : (⟨S_, .f32⟩ : BufTy).Contents (Elt F) → (⟨S4x2048x3, .f32⟩ : BufTy).Contents (Elt F)),
    binary main_v14 main_v13 main_v15 (addf : (⟨S4x2048x3, .f32⟩ : BufTy).Contents (Elt F) → (⟨S4x2048x3, .f32⟩ : BufTy).Contents (Elt F) → (⟨S4x2048x3, .f32⟩ : BufTy).Contents (Elt F)),
    unary main_v15 main_v16 (Host.absf : (⟨S4x2048x3, .f32⟩ : BufTy).Contents (Elt F) → (⟨S4x2048x3, .f32⟩ : BufTy).Contents (Elt F)),
    nullary main_cst_3 (constant S_ .f32 0x3C23D70A#32),
    unary main_cst_3 main_v17 (broadcastInDim S4x2048x3 ![] bcast_S_S4x2048x3 : (⟨S_, .f32⟩ : BufTy).Contents (Elt F) → (⟨S4x2048x3, .f32⟩ : BufTy).Contents (Elt F)),
    binary main_v16 main_v17 main_v18 (cmpf .olt : (⟨S4x2048x3, .f32⟩ : BufTy).Contents (Elt F) → (⟨S4x2048x3, .f32⟩ : BufTy).Contents (Elt F) → (⟨S4x2048x3, .i1⟩ : BufTy).Contents (Elt F)),
    nullary main_cst_4 (constant S_ .f32 0x00000000#32),
    unary main_cst_4 main_v19 (broadcastInDim S4x2048x3 ![] bcast_S_S4x2048x3 : (⟨S_, .f32⟩ : BufTy).Contents (Elt F) → (⟨S4x2048x3, .f32⟩ : BufTy).Contents (Elt F)),
    binary main_v15 main_v19 main_v20 (cmpf .oge : (⟨S4x2048x3, .f32⟩ : BufTy).Contents (Elt F) → (⟨S4x2048x3, .f32⟩ : BufTy).Contents (Elt F) → (⟨S4x2048x3, .i1⟩ : BufTy).Contents (Elt F)),
    nullary main_cst_5 (constant S_ .f32 0x3C23D70A#32),
    nullary main_cst_6 (constant S_ .f32 0xBC23D70A#32),
    TRef.unary (TRef.of (T := ⟨S_, .f32⟩) main_cst_5) main_call0.v0 (broadcastInDim S4x2048x3 ![] bcast_S_S4x2048x3),
    TRef.unary (TRef.of (T := ⟨S_, .f32⟩) main_cst_6) main_call0.v1 (broadcastInDim S4x2048x3 ![] bcast_S_S4x2048x3),
    TRef.ternary (TRef.of (T := ⟨S4x2048x3, .i1⟩) main_v20) main_call0.v0 main_call0.v1 main_call0.v2 select,
    TRef.unary (TRef.of (T := ⟨S4x2048x3, .f32⟩) main_v21) main_call1.v0 id,
    TRef.ternary (TRef.of (T := ⟨S4x2048x3, .i1⟩) main_v18) main_call1.v0 (TRef.of (T := ⟨S4x2048x3, .f32⟩) main_v15) main_call1.v1 select,
    unary main_v12 main_v23 ((extractStridedSlice S4x2048x3x1 ![0, 0, 0, 4] · slices_S4x2048x3x5_S4x2048x3x1_0_0_0_4) : (⟨S4x2048x3x5, .f32⟩ : BufTy).Contents (Elt F) → (⟨S4x2048x3x1, .f32⟩ : BufTy).Contents (Elt F)),
    reshape main_v23 main_v24 rfl shapeCasts_S4x2048x3x1_S4x2048x3,
    binary main_v24 main_v22 main_v25 (Host.divf : (⟨S4x2048x3, .f32⟩ : BufTy).Contents (Elt F) → (⟨S4x2048x3, .f32⟩ : BufTy).Contents (Elt F) → (⟨S4x2048x3, .f32⟩ : BufTy).Contents (Elt F)) ]

abbrev opsR4 : List (HloOp τ sig (Elt F)) :=
  [ nullary main_cst_7 (constant S_ .f32 0x3F800000#32),
    unary main_cst_7 main_v26 (broadcastInDim S4x2048x3 ![] bcast_S_S4x2048x3 : (⟨S_, .f32⟩ : BufTy).Contents (Elt F) → (⟨S4x2048x3, .f32⟩ : BufTy).Contents (Elt F)),
    binary main_v26 main_v25 main_v27 (addf : (⟨S4x2048x3, .f32⟩ : BufTy).Contents (Elt F) → (⟨S4x2048x3, .f32⟩ : BufTy).Contents (Elt F) → (⟨S4x2048x3, .f32⟩ : BufTy).Contents (Elt F)),
    unary main_v27 main_v28 (Host.absf : (⟨S4x2048x3, .f32⟩ : BufTy).Contents (Elt F) → (⟨S4x2048x3, .f32⟩ : BufTy).Contents (Elt F)),
    nullary main_cst_8 (constant S_ .f32 0x3C23D70A#32),
    unary main_cst_8 main_v29 (broadcastInDim S4x2048x3 ![] bcast_S_S4x2048x3 : (⟨S_, .f32⟩ : BufTy).Contents (Elt F) → (⟨S4x2048x3, .f32⟩ : BufTy).Contents (Elt F)),
    binary main_v28 main_v29 main_v30 (cmpf .olt : (⟨S4x2048x3, .f32⟩ : BufTy).Contents (Elt F) → (⟨S4x2048x3, .f32⟩ : BufTy).Contents (Elt F) → (⟨S4x2048x3, .i1⟩ : BufTy).Contents (Elt F)),
    nullary main_cst_9 (constant S_ .f32 0x00000000#32),
    unary main_cst_9 main_v31 (broadcastInDim S4x2048x3 ![] bcast_S_S4x2048x3 : (⟨S_, .f32⟩ : BufTy).Contents (Elt F) → (⟨S4x2048x3, .f32⟩ : BufTy).Contents (Elt F)),
    binary main_v27 main_v31 main_v32 (cmpf .oge : (⟨S4x2048x3, .f32⟩ : BufTy).Contents (Elt F) → (⟨S4x2048x3, .f32⟩ : BufTy).Contents (Elt F) → (⟨S4x2048x3, .i1⟩ : BufTy).Contents (Elt F)),
    nullary main_cst_10 (constant S_ .f32 0x3C23D70A#32),
    nullary main_cst_11 (constant S_ .f32 0xBC23D70A#32),
    TRef.unary (TRef.of (T := ⟨S_, .f32⟩) main_cst_10) main_call2.v0 (broadcastInDim S4x2048x3 ![] bcast_S_S4x2048x3),
    TRef.unary (TRef.of (T := ⟨S_, .f32⟩) main_cst_11) main_call2.v1 (broadcastInDim S4x2048x3 ![] bcast_S_S4x2048x3),
    TRef.ternary (TRef.of (T := ⟨S4x2048x3, .i1⟩) main_v32) main_call2.v0 main_call2.v1 main_call2.v2 select,
    TRef.unary (TRef.of (T := ⟨S4x2048x3, .f32⟩) main_v33) main_call3.v0 id,
    TRef.ternary (TRef.of (T := ⟨S4x2048x3, .i1⟩) main_v30) main_call3.v0 (TRef.of (T := ⟨S4x2048x3, .f32⟩) main_v27) main_call3.v1 select,
    unary main_v12 main_v35 ((extractStridedSlice S4x2048x3x1 ![0, 0, 0, 3] · slices_S4x2048x3x5_S4x2048x3x1_0_0_0_3) : (⟨S4x2048x3x5, .f32⟩ : BufTy).Contents (Elt F) → (⟨S4x2048x3x1, .f32⟩ : BufTy).Contents (Elt F)),
    reshape main_v35 main_v36 rfl shapeCasts_S4x2048x3x1_S4x2048x3,
    binary main_v36 main_v34 main_v37 (Host.divf : (⟨S4x2048x3, .f32⟩ : BufTy).Contents (Elt F) → (⟨S4x2048x3, .f32⟩ : BufTy).Contents (Elt F) → (⟨S4x2048x3, .f32⟩ : BufTy).Contents (Elt F)) ]

abbrev opsR3 : List (HloOp τ sig (Elt F)) :=
  [ nullary main_cst_12 (constant S_ .f32 0x3F800000#32),
    unary main_cst_12 main_v38 (broadcastInDim S4x2048x3 ![] bcast_S_S4x2048x3 : (⟨S_, .f32⟩ : BufTy).Contents (Elt F) → (⟨S4x2048x3, .f32⟩ : BufTy).Contents (Elt F)),
    binary main_v38 main_v37 main_v39 (addf : (⟨S4x2048x3, .f32⟩ : BufTy).Contents (Elt F) → (⟨S4x2048x3, .f32⟩ : BufTy).Contents (Elt F) → (⟨S4x2048x3, .f32⟩ : BufTy).Contents (Elt F)),
    unary main_v39 main_v40 (Host.absf : (⟨S4x2048x3, .f32⟩ : BufTy).Contents (Elt F) → (⟨S4x2048x3, .f32⟩ : BufTy).Contents (Elt F)),
    nullary main_cst_13 (constant S_ .f32 0x3C23D70A#32),
    unary main_cst_13 main_v41 (broadcastInDim S4x2048x3 ![] bcast_S_S4x2048x3 : (⟨S_, .f32⟩ : BufTy).Contents (Elt F) → (⟨S4x2048x3, .f32⟩ : BufTy).Contents (Elt F)),
    binary main_v40 main_v41 main_v42 (cmpf .olt : (⟨S4x2048x3, .f32⟩ : BufTy).Contents (Elt F) → (⟨S4x2048x3, .f32⟩ : BufTy).Contents (Elt F) → (⟨S4x2048x3, .i1⟩ : BufTy).Contents (Elt F)),
    nullary main_cst_14 (constant S_ .f32 0x00000000#32),
    unary main_cst_14 main_v43 (broadcastInDim S4x2048x3 ![] bcast_S_S4x2048x3 : (⟨S_, .f32⟩ : BufTy).Contents (Elt F) → (⟨S4x2048x3, .f32⟩ : BufTy).Contents (Elt F)),
    binary main_v39 main_v43 main_v44 (cmpf .oge : (⟨S4x2048x3, .f32⟩ : BufTy).Contents (Elt F) → (⟨S4x2048x3, .f32⟩ : BufTy).Contents (Elt F) → (⟨S4x2048x3, .i1⟩ : BufTy).Contents (Elt F)),
    nullary main_cst_15 (constant S_ .f32 0x3C23D70A#32),
    nullary main_cst_16 (constant S_ .f32 0xBC23D70A#32),
    TRef.unary (TRef.of (T := ⟨S_, .f32⟩) main_cst_15) main_call4.v0 (broadcastInDim S4x2048x3 ![] bcast_S_S4x2048x3),
    TRef.unary (TRef.of (T := ⟨S_, .f32⟩) main_cst_16) main_call4.v1 (broadcastInDim S4x2048x3 ![] bcast_S_S4x2048x3),
    TRef.ternary (TRef.of (T := ⟨S4x2048x3, .i1⟩) main_v44) main_call4.v0 main_call4.v1 main_call4.v2 select,
    TRef.unary (TRef.of (T := ⟨S4x2048x3, .f32⟩) main_v45) main_call5.v0 id,
    TRef.ternary (TRef.of (T := ⟨S4x2048x3, .i1⟩) main_v42) main_call5.v0 (TRef.of (T := ⟨S4x2048x3, .f32⟩) main_v39) main_call5.v1 select,
    unary main_v12 main_v47 ((extractStridedSlice S4x2048x3x1 ![0, 0, 0, 2] · slices_S4x2048x3x5_S4x2048x3x1_0_0_0_2) : (⟨S4x2048x3x5, .f32⟩ : BufTy).Contents (Elt F) → (⟨S4x2048x3x1, .f32⟩ : BufTy).Contents (Elt F)),
    reshape main_v47 main_v48 rfl shapeCasts_S4x2048x3x1_S4x2048x3,
    binary main_v48 main_v46 main_v49 (Host.divf : (⟨S4x2048x3, .f32⟩ : BufTy).Contents (Elt F) → (⟨S4x2048x3, .f32⟩ : BufTy).Contents (Elt F) → (⟨S4x2048x3, .f32⟩ : BufTy).Contents (Elt F)) ]

abbrev opsR2 : List (HloOp τ sig (Elt F)) :=
  [ nullary main_cst_17 (constant S_ .f32 0x3F800000#32),
    unary main_cst_17 main_v50 (broadcastInDim S4x2048x3 ![] bcast_S_S4x2048x3 : (⟨S_, .f32⟩ : BufTy).Contents (Elt F) → (⟨S4x2048x3, .f32⟩ : BufTy).Contents (Elt F)),
    binary main_v50 main_v49 main_v51 (addf : (⟨S4x2048x3, .f32⟩ : BufTy).Contents (Elt F) → (⟨S4x2048x3, .f32⟩ : BufTy).Contents (Elt F) → (⟨S4x2048x3, .f32⟩ : BufTy).Contents (Elt F)),
    unary main_v51 main_v52 (Host.absf : (⟨S4x2048x3, .f32⟩ : BufTy).Contents (Elt F) → (⟨S4x2048x3, .f32⟩ : BufTy).Contents (Elt F)),
    nullary main_cst_18 (constant S_ .f32 0x3C23D70A#32),
    unary main_cst_18 main_v53 (broadcastInDim S4x2048x3 ![] bcast_S_S4x2048x3 : (⟨S_, .f32⟩ : BufTy).Contents (Elt F) → (⟨S4x2048x3, .f32⟩ : BufTy).Contents (Elt F)),
    binary main_v52 main_v53 main_v54 (cmpf .olt : (⟨S4x2048x3, .f32⟩ : BufTy).Contents (Elt F) → (⟨S4x2048x3, .f32⟩ : BufTy).Contents (Elt F) → (⟨S4x2048x3, .i1⟩ : BufTy).Contents (Elt F)),
    nullary main_cst_19 (constant S_ .f32 0x00000000#32),
    unary main_cst_19 main_v55 (broadcastInDim S4x2048x3 ![] bcast_S_S4x2048x3 : (⟨S_, .f32⟩ : BufTy).Contents (Elt F) → (⟨S4x2048x3, .f32⟩ : BufTy).Contents (Elt F)),
    binary main_v51 main_v55 main_v56 (cmpf .oge : (⟨S4x2048x3, .f32⟩ : BufTy).Contents (Elt F) → (⟨S4x2048x3, .f32⟩ : BufTy).Contents (Elt F) → (⟨S4x2048x3, .i1⟩ : BufTy).Contents (Elt F)),
    nullary main_cst_20 (constant S_ .f32 0x3C23D70A#32),
    nullary main_cst_21 (constant S_ .f32 0xBC23D70A#32),
    TRef.unary (TRef.of (T := ⟨S_, .f32⟩) main_cst_20) main_call6.v0 (broadcastInDim S4x2048x3 ![] bcast_S_S4x2048x3),
    TRef.unary (TRef.of (T := ⟨S_, .f32⟩) main_cst_21) main_call6.v1 (broadcastInDim S4x2048x3 ![] bcast_S_S4x2048x3),
    TRef.ternary (TRef.of (T := ⟨S4x2048x3, .i1⟩) main_v56) main_call6.v0 main_call6.v1 main_call6.v2 select,
    TRef.unary (TRef.of (T := ⟨S4x2048x3, .f32⟩) main_v57) main_call7.v0 id,
    TRef.ternary (TRef.of (T := ⟨S4x2048x3, .i1⟩) main_v54) main_call7.v0 (TRef.of (T := ⟨S4x2048x3, .f32⟩) main_v51) main_call7.v1 select,
    unary main_v12 main_v59 ((extractStridedSlice S4x2048x3x1 ![0, 0, 0, 1] · slices_S4x2048x3x5_S4x2048x3x1_0_0_0_1) : (⟨S4x2048x3x5, .f32⟩ : BufTy).Contents (Elt F) → (⟨S4x2048x3x1, .f32⟩ : BufTy).Contents (Elt F)),
    reshape main_v59 main_v60 rfl shapeCasts_S4x2048x3x1_S4x2048x3,
    binary main_v60 main_v58 main_v61 (Host.divf : (⟨S4x2048x3, .f32⟩ : BufTy).Contents (Elt F) → (⟨S4x2048x3, .f32⟩ : BufTy).Contents (Elt F) → (⟨S4x2048x3, .f32⟩ : BufTy).Contents (Elt F)) ]

abbrev opsR1 : List (HloOp τ sig (Elt F)) :=
  [ nullary main_cst_22 (constant S_ .f32 0x3F800000#32),
    unary main_cst_22 main_v62 (broadcastInDim S4x2048x3 ![] bcast_S_S4x2048x3 : (⟨S_, .f32⟩ : BufTy).Contents (Elt F) → (⟨S4x2048x3, .f32⟩ : BufTy).Contents (Elt F)),
    binary main_v62 main_v61 main_v63 (addf : (⟨S4x2048x3, .f32⟩ : BufTy).Contents (Elt F) → (⟨S4x2048x3, .f32⟩ : BufTy).Contents (Elt F) → (⟨S4x2048x3, .f32⟩ : BufTy).Contents (Elt F)),
    unary main_v63 main_v64 (Host.absf : (⟨S4x2048x3, .f32⟩ : BufTy).Contents (Elt F) → (⟨S4x2048x3, .f32⟩ : BufTy).Contents (Elt F)),
    nullary main_cst_23 (constant S_ .f32 0x3C23D70A#32),
    unary main_cst_23 main_v65 (broadcastInDim S4x2048x3 ![] bcast_S_S4x2048x3 : (⟨S_, .f32⟩ : BufTy).Contents (Elt F) → (⟨S4x2048x3, .f32⟩ : BufTy).Contents (Elt F)),
    binary main_v64 main_v65 main_v66 (cmpf .olt : (⟨S4x2048x3, .f32⟩ : BufTy).Contents (Elt F) → (⟨S4x2048x3, .f32⟩ : BufTy).Contents (Elt F) → (⟨S4x2048x3, .i1⟩ : BufTy).Contents (Elt F)),
    nullary main_cst_24 (constant S_ .f32 0x00000000#32),
    unary main_cst_24 main_v67 (broadcastInDim S4x2048x3 ![] bcast_S_S4x2048x3 : (⟨S_, .f32⟩ : BufTy).Contents (Elt F) → (⟨S4x2048x3, .f32⟩ : BufTy).Contents (Elt F)),
    binary main_v63 main_v67 main_v68 (cmpf .oge : (⟨S4x2048x3, .f32⟩ : BufTy).Contents (Elt F) → (⟨S4x2048x3, .f32⟩ : BufTy).Contents (Elt F) → (⟨S4x2048x3, .i1⟩ : BufTy).Contents (Elt F)),
    nullary main_cst_25 (constant S_ .f32 0x3C23D70A#32),
    nullary main_cst_26 (constant S_ .f32 0xBC23D70A#32),
    TRef.unary (TRef.of (T := ⟨S_, .f32⟩) main_cst_25) main_call8.v0 (broadcastInDim S4x2048x3 ![] bcast_S_S4x2048x3),
    TRef.unary (TRef.of (T := ⟨S_, .f32⟩) main_cst_26) main_call8.v1 (broadcastInDim S4x2048x3 ![] bcast_S_S4x2048x3),
    TRef.ternary (TRef.of (T := ⟨S4x2048x3, .i1⟩) main_v68) main_call8.v0 main_call8.v1 main_call8.v2 select,
    TRef.unary (TRef.of (T := ⟨S4x2048x3, .f32⟩) main_v69) main_call9.v0 id,
    TRef.ternary (TRef.of (T := ⟨S4x2048x3, .i1⟩) main_v66) main_call9.v0 (TRef.of (T := ⟨S4x2048x3, .f32⟩) main_v63) main_call9.v1 select,
    unary main_v12 main_v71 ((extractStridedSlice S4x2048x3x1 ![0, 0, 0, 0] · slices_S4x2048x3x5_S4x2048x3x1_0_0_0_0) : (⟨S4x2048x3x5, .f32⟩ : BufTy).Contents (Elt F) → (⟨S4x2048x3x1, .f32⟩ : BufTy).Contents (Elt F)),
    reshape main_v71 main_v72 rfl shapeCasts_S4x2048x3x1_S4x2048x3,
    binary main_v72 main_v70 main_v73 (Host.divf : (⟨S4x2048x3, .f32⟩ : BufTy).Contents (Elt F) → (⟨S4x2048x3, .f32⟩ : BufTy).Contents (Elt F) → (⟨S4x2048x3, .f32⟩ : BufTy).Contents (Elt F)) ]

abbrev opsTail : List (HloOp τ sig (Elt F)) :=
  [ binary main_v11 main_v73 main_v74 (addf : (⟨S4x2048x3, .f32⟩ : BufTy).Contents (Elt F) → (⟨S4x2048x3, .f32⟩ : BufTy).Contents (Elt F) → (⟨S4x2048x3, .f32⟩ : BufTy).Contents (Elt F)),
    binary main_v74 main_arg4 main_v75 ((fun l r => Host.dotGeneral dot_S4x2048x3_S2048x3_S4x2048x2048_2_1_01_0_n_n none l r) : (⟨S4x2048x3, .f32⟩ : BufTy).Contents (Elt F) → (⟨S2048x3, .f32⟩ : BufTy).Contents (Elt F) → (⟨S4x2048x2048, .f32⟩ : BufTy).Contents (Elt F)),
    binary main_v0 main_v75 main_v76 (addf : (⟨S4x2048x2048, .f32⟩ : BufTy).Contents (Elt F) → (⟨S4x2048x2048, .f32⟩ : BufTy).Contents (Elt F) → (⟨S4x2048x2048, .f32⟩ : BufTy).Contents (Elt F)) ]

set_option maxRecDepth 16384 in
theorem ops_split : (ops : List (HloOp τ sig (Elt F))) = opsHead ++ (opsR5 ++ (opsR4 ++ (opsR3 ++ (opsR2 ++ (opsR1 ++ opsTail))))) := rfl

/-! ## The head -/

theorem head_v0 (W : Valuation τ sig (Elt F)) :
    after opsHead W (main_v0 : DevRef τ sig) = Host.dotGeneral dot_S4x2048x2048_S2048x2048_S4x2048x2048_2_1_01_0_n_n none (W (main_arg0 : DevRef τ sig)) (W (main_arg1 : DevRef τ sig)) := by
  after_results_simp
theorem head_v11 (W : Valuation τ sig (Elt F)) :
    after opsHead W (main_v11 : DevRef τ sig) = coef0 (coefArr (W (main_arg0 : DevRef τ sig)) (W (main_arg2 : DevRef τ sig)) (W (main_arg3 : DevRef τ sig))) := by
  after_results_simp
  rfl
theorem head_v12 (W : Valuation τ sig (Elt F)) :
    after opsHead W (main_v12 : DevRef τ sig) = rest (coefArr (W (main_arg0 : DevRef τ sig)) (W (main_arg2 : DevRef τ sig)) (W (main_arg3 : DevRef τ sig))) := by
  after_results_simp
  rfl
theorem head_keeps_arg4 (W : Valuation τ sig (Elt F)) : after opsHead W (main_arg4 : DevRef τ sig) = W (main_arg4 : DevRef τ sig) := by after_results_simp

/-! ## The rungs -/

/-- The rung leaves its coefficient over the guarded `1 +` the rung inside it. -/
theorem r5_out (W : Valuation τ sig (Elt F)) :
    after opsR5 W (main_v25 : DevRef τ sig) = rungArr (restAt4 (W (main_v12 : DevRef τ sig))) (splat 0x00000000#32) := by
  after_results_simp
  rfl
theorem r5_keeps_v0 (W : Valuation τ sig (Elt F)) : after opsR5 W (main_v0 : DevRef τ sig) = W (main_v0 : DevRef τ sig) := by after_results_simp
theorem r5_keeps_v11 (W : Valuation τ sig (Elt F)) : after opsR5 W (main_v11 : DevRef τ sig) = W (main_v11 : DevRef τ sig) := by after_results_simp
theorem r5_keeps_v12 (W : Valuation τ sig (Elt F)) : after opsR5 W (main_v12 : DevRef τ sig) = W (main_v12 : DevRef τ sig) := by after_results_simp
theorem r5_keeps_arg4 (W : Valuation τ sig (Elt F)) : after opsR5 W (main_arg4 : DevRef τ sig) = W (main_arg4 : DevRef τ sig) := by after_results_simp

/-- The rung leaves its coefficient over the guarded `1 +` the rung inside it. -/
theorem r4_out (W : Valuation τ sig (Elt F)) :
    after opsR4 W (main_v37 : DevRef τ sig) = rungArr (restAt3 (W (main_v12 : DevRef τ sig))) (W (main_v25 : DevRef τ sig)) := by
  after_results_simp
  rfl
theorem r4_keeps_v0 (W : Valuation τ sig (Elt F)) : after opsR4 W (main_v0 : DevRef τ sig) = W (main_v0 : DevRef τ sig) := by after_results_simp
theorem r4_keeps_v11 (W : Valuation τ sig (Elt F)) : after opsR4 W (main_v11 : DevRef τ sig) = W (main_v11 : DevRef τ sig) := by after_results_simp
theorem r4_keeps_v12 (W : Valuation τ sig (Elt F)) : after opsR4 W (main_v12 : DevRef τ sig) = W (main_v12 : DevRef τ sig) := by after_results_simp
theorem r4_keeps_arg4 (W : Valuation τ sig (Elt F)) : after opsR4 W (main_arg4 : DevRef τ sig) = W (main_arg4 : DevRef τ sig) := by after_results_simp

/-- The rung leaves its coefficient over the guarded `1 +` the rung inside it. -/
theorem r3_out (W : Valuation τ sig (Elt F)) :
    after opsR3 W (main_v49 : DevRef τ sig) = rungArr (restAt2 (W (main_v12 : DevRef τ sig))) (W (main_v37 : DevRef τ sig)) := by
  after_results_simp
  rfl
theorem r3_keeps_v0 (W : Valuation τ sig (Elt F)) : after opsR3 W (main_v0 : DevRef τ sig) = W (main_v0 : DevRef τ sig) := by after_results_simp
theorem r3_keeps_v11 (W : Valuation τ sig (Elt F)) : after opsR3 W (main_v11 : DevRef τ sig) = W (main_v11 : DevRef τ sig) := by after_results_simp
theorem r3_keeps_v12 (W : Valuation τ sig (Elt F)) : after opsR3 W (main_v12 : DevRef τ sig) = W (main_v12 : DevRef τ sig) := by after_results_simp
theorem r3_keeps_arg4 (W : Valuation τ sig (Elt F)) : after opsR3 W (main_arg4 : DevRef τ sig) = W (main_arg4 : DevRef τ sig) := by after_results_simp

/-- The rung leaves its coefficient over the guarded `1 +` the rung inside it. -/
theorem r2_out (W : Valuation τ sig (Elt F)) :
    after opsR2 W (main_v61 : DevRef τ sig) = rungArr (restAt1 (W (main_v12 : DevRef τ sig))) (W (main_v49 : DevRef τ sig)) := by
  after_results_simp
  rfl
theorem r2_keeps_v0 (W : Valuation τ sig (Elt F)) : after opsR2 W (main_v0 : DevRef τ sig) = W (main_v0 : DevRef τ sig) := by after_results_simp
theorem r2_keeps_v11 (W : Valuation τ sig (Elt F)) : after opsR2 W (main_v11 : DevRef τ sig) = W (main_v11 : DevRef τ sig) := by after_results_simp
theorem r2_keeps_v12 (W : Valuation τ sig (Elt F)) : after opsR2 W (main_v12 : DevRef τ sig) = W (main_v12 : DevRef τ sig) := by after_results_simp
theorem r2_keeps_arg4 (W : Valuation τ sig (Elt F)) : after opsR2 W (main_arg4 : DevRef τ sig) = W (main_arg4 : DevRef τ sig) := by after_results_simp

/-- The rung leaves its coefficient over the guarded `1 +` the rung inside it. -/
theorem r1_out (W : Valuation τ sig (Elt F)) :
    after opsR1 W (main_v73 : DevRef τ sig) = rungArr (restAt0 (W (main_v12 : DevRef τ sig))) (W (main_v61 : DevRef τ sig)) := by
  after_results_simp
  rfl
theorem r1_keeps_v0 (W : Valuation τ sig (Elt F)) : after opsR1 W (main_v0 : DevRef τ sig) = W (main_v0 : DevRef τ sig) := by after_results_simp
theorem r1_keeps_v11 (W : Valuation τ sig (Elt F)) : after opsR1 W (main_v11 : DevRef τ sig) = W (main_v11 : DevRef τ sig) := by after_results_simp
theorem r1_keeps_arg4 (W : Valuation τ sig (Elt F)) : after opsR1 W (main_arg4 : DevRef τ sig) = W (main_arg4 : DevRef τ sig) := by after_results_simp

/-! ## The tail -/

theorem tail_out (W : Valuation τ sig (Elt F)) :
    after opsTail W (main_v76 : DevRef τ sig)
      = addf (W (main_v0 : DevRef τ sig)) (Host.dotGeneral dot_S4x2048x3_S2048x3_S4x2048x2048_2_1_01_0_n_n none (addf (W (main_v11 : DevRef τ sig)) (W (main_v73 : DevRef τ sig))) (W (main_arg4 : DevRef τ sig))) := by
  after_results_simp

/-! ## Composed -/

/-- The list's fold at the result buffer is `value` of the arguments. -/
theorem value_eq (V : Valuation τ sig (Elt F)) :
    after ops V (main_v76 : DevRef τ sig)
      = value (V (main_arg0 : DevRef τ sig)) (V (main_arg1 : DevRef τ sig)) (V (main_arg2 : DevRef τ sig)) (V (main_arg3 : DevRef τ sig)) (V (main_arg4 : DevRef τ sig)) := by
  rw [ops_split, after_append, after_append, after_append, after_append, after_append, after_append, tail_out,
    r1_out, r1_keeps_v0, r1_keeps_v11, r1_keeps_arg4,
    r2_out, r2_keeps_v0, r2_keeps_v11, r2_keeps_v12, r2_keeps_arg4,
    r3_out, r3_keeps_v0, r3_keeps_v11, r3_keeps_v12, r3_keeps_arg4,
    r4_out, r4_keeps_v0, r4_keeps_v11, r4_keeps_v12, r4_keeps_arg4,
    r5_out, r5_keeps_v0, r5_keeps_v11, r5_keeps_v12, r5_keeps_arg4,
    head_v0, head_v11, head_v12, head_keeps_arg4]
  rfl

end Cert.Ladder.RefRun

end
-- ==== Proof.RefArgs.lean ====
/-
  No operation of the reference writes an argument's buffer: the fold leaves each as it was.
-/
import proofs.«170637_j68478958568093_2_alg».proof.Proof.RefOps

noncomputable section

namespace Cert.Ladder.RefRun

open Cert.ReferenceIdeal Cert.ReferenceIdeal.Facts₀ Idealize.ShloMosaic Idealize.ShloMosaic.TcCoe
  Idealize.SL.Sem Idealize.ShloMosaic.StableHlo

variable {F : FTy → Type} [FloatOps F]

set_option maxRecDepth 16384 in
theorem arg0_eq (V : Valuation τ sig (Elt F)) : after ops V (main_arg0 : DevRef τ sig) = V (main_arg0 : DevRef τ sig) := by
  after_results_simp
set_option maxRecDepth 16384 in
theorem arg1_eq (V : Valuation τ sig (Elt F)) : after ops V (main_arg1 : DevRef τ sig) = V (main_arg1 : DevRef τ sig) := by
  after_results_simp
set_option maxRecDepth 16384 in
theorem arg2_eq (V : Valuation τ sig (Elt F)) : after ops V (main_arg2 : DevRef τ sig) = V (main_arg2 : DevRef τ sig) := by
  after_results_simp
set_option maxRecDepth 16384 in
theorem arg3_eq (V : Valuation τ sig (Elt F)) : after ops V (main_arg3 : DevRef τ sig) = V (main_arg3 : DevRef τ sig) := by
  after_results_simp
set_option maxRecDepth 16384 in
theorem arg4_eq (V : Valuation τ sig (Elt F)) : after ops V (main_arg4 : DevRef τ sig) = V (main_arg4 : DevRef τ sig) := by
  after_results_simp

end Cert.Ladder.RefRun

end
-- ==== Proof.RefRun.lean ====
/-
  The reference program's run: every weakly fair execution ends with the result buffer at `value` of the argument arrays
  as launched, and the argument arrays unchanged.
-/
import proofs.«170637_j68478958568093_2_alg».proof.Proof.RefOps
import proofs.«170637_j68478958568093_2_alg».proof.Proof.RefMain
import proofs.«170637_j68478958568093_2_alg».proof.Proof.RefFold
import proofs.«170637_j68478958568093_2_alg».proof.Proof.RefArgs

noncomputable section

namespace Cert.Ladder.RefRun

open Cert.ReferenceIdeal Cert.ReferenceIdeal.Facts₀ Idealize.ShloMosaic Idealize.ShloMosaic.TcCoe
  Idealize.SL.Sem Idealize.ShloMosaic.StableHlo

variable {F : FTy → Type} [FloatOps F]

/-! ## The run -/

/-- On every device, from any memory with zero counters: every weakly fair execution of @main terminates with the
    result buffer at `value` of the argument arrays as launched, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76)
          = value (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v76).trans (value_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.Ladder.RefRun

end
-- ==== Proof.RefIsLadder.lean ====
/-
  The reference program computes the ladder function: its result, `Cert.Ladder.RefRun.value` of the five argument arrays,
  read index by index at the ideal instance, is `Cert.Ladder.G`.

  The reference forms all eighteen coefficients of a row at once as one contraction `a[b,s,l,k] = ∑ d gx[b,s,d] · lad[l,k,d]`,
  slices coefficient `k` out along the last axis, runs the five guarded rungs from `k = 5` down to `k = 1`, adds
  coefficient `0`, contracts the three ladder values with `V` and adds the linear head. Each stage is read at the index
  `(b, s, l)` (or `(b, s, o)`), where it is the corresponding step of `Cert.Ladder`: a contraction is a plain sum over the
  contracted axis, a slice or reshape moves the index, everything else acts on the entry alone.
-/
import proofs.«170637_j68478958568093_2_alg».proof.Proof.RefOps
import proofs.«170637_j68478958568093_2_alg».proof.Proof.Ladder
import Idealize.ShloMosaic.Lib.Pipeline.Value
import Idealize.ShloMosaic.Lib.ValueIdx
import Idealize.ShloMosaic.PureOps.Ideal.Laws

noncomputable section

namespace Cert.Ladder.Reference

open Cert.ReferenceIdeal Idealize.ShloMosaic Idealize.ShloMosaic.ValueIdx Cert.Ladder Cert.Ladder.RefRun

/-! ## The three contractions as sums -/

theorem headDot_l0 (i : S4x2048x2048.Idx) (q : dot_S4x2048x2048_S2048x2048_S4x2048x2048_2_1_01_0_n_n.contr.Idx) : (dot_S4x2048x2048_S2048x2048_S4x2048x2048_2_1_01_0_n_n.lhsIdx i q 0).val = (i 0).val := by
  unfold DotDims.lhsIdx
  rw [dif_neg (show ¬(0 : Fin S4x2048x2048.rank) ∈ dot_S4x2048x2048_S2048x2048_S4x2048x2048_2_1_01_0_n_n.lhsBatch by decide), dif_pos (show (0 : Fin S4x2048x2048.rank) ∈ dot_S4x2048x2048_S2048x2048_S4x2048x2048_2_1_01_0_n_n.lhsNonContracting by decide)]
  rfl
theorem headDot_l1 (i : S4x2048x2048.Idx) (q : dot_S4x2048x2048_S2048x2048_S4x2048x2048_2_1_01_0_n_n.contr.Idx) : (dot_S4x2048x2048_S2048x2048_S4x2048x2048_2_1_01_0_n_n.lhsIdx i q 1).val = (i 1).val := by
  unfold DotDims.lhsIdx
  rw [dif_neg (show ¬(1 : Fin S4x2048x2048.rank) ∈ dot_S4x2048x2048_S2048x2048_S4x2048x2048_2_1_01_0_n_n.lhsBatch by decide), dif_pos (show (1 : Fin S4x2048x2048.rank) ∈ dot_S4x2048x2048_S2048x2048_S4x2048x2048_2_1_01_0_n_n.lhsNonContracting by decide)]
  rfl
theorem headDot_r0 (i : S4x2048x2048.Idx) (q : dot_S4x2048x2048_S2048x2048_S4x2048x2048_2_1_01_0_n_n.contr.Idx) : (dot_S4x2048x2048_S2048x2048_S4x2048x2048_2_1_01_0_n_n.rhsIdx i q 0).val = (i 2).val := by
  unfold DotDims.rhsIdx
  rw [dif_neg (show ¬(0 : Fin S2048x2048.rank) ∈ dot_S4x2048x2048_S2048x2048_S4x2048x2048_2_1_01_0_n_n.rhsBatch by decide), dif_pos (show (0 : Fin S2048x2048.rank) ∈ dot_S4x2048x2048_S2048x2048_S4x2048x2048_2_1_01_0_n_n.rhsNonContracting by decide)]
  rfl

/-- Row `(b, s)` of the input against row `o` of a `[2048, 2048]` weight. -/
theorem headDot (x : FVec Ideal S4x2048x2048 .f32) (w : FVec Ideal S2048x2048 .f32) (b : Fin 4) (s o : Fin 2048) :
    Host.dotGeneral (F := Ideal) dot_S4x2048x2048_S2048x2048_S4x2048x2048_2_1_01_0_n_n none x w (ix3 b s o) = ∑ k : Fin 2048, x (ix3 b s k) * w (ix2 o k) := by
  simp only [Host.dotGeneral]
  rw [Ideal.dotGeneral_apply, ← Equiv.sum_comp (contrEquiv1 dot_S4x2048x2048_S2048x2048_S4x2048x2048_2_1_01_0_n_n 2048 rfl rfl).symm]
  refine Finset.sum_congr rfl fun k _ => ?_
  have hk := contrEquiv1_symm_val dot_S4x2048x2048_S2048x2048_S4x2048x2048_2_1_01_0_n_n 2048 rfl rfl k
  have el : dot_S4x2048x2048_S2048x2048_S4x2048x2048_2_1_01_0_n_n.lhsIdx (ix3 b s o) ((contrEquiv1 dot_S4x2048x2048_S2048x2048_S4x2048x2048_2_1_01_0_n_n 2048 rfl rfl).symm k) = ix3 b s k := funext fun a => Fin.ext (by
    match a with
    | ⟨0, _⟩ => exact headDot_l0 _ _
    | ⟨1, _⟩ => exact headDot_l1 _ _
    | ⟨2, _⟩ => exact (dot_S4x2048x2048_S2048x2048_S4x2048x2048_2_1_01_0_n_n.lhsIdx_val_of_single rfl _ _).trans hk)
  have er : dot_S4x2048x2048_S2048x2048_S4x2048x2048_2_1_01_0_n_n.rhsIdx (ix3 b s o) ((contrEquiv1 dot_S4x2048x2048_S2048x2048_S4x2048x2048_2_1_01_0_n_n 2048 rfl rfl).symm k) = ix2 o k := funext fun a => Fin.ext (by
    match a with
    | ⟨0, _⟩ => exact headDot_r0 _ _
    | ⟨1, _⟩ => exact (dot_S4x2048x2048_S2048x2048_S4x2048x2048_2_1_01_0_n_n.rhsIdx_val_of_single rfl _ _).trans hk)
  rw [el, er]

theorem coefDot_l0 (i : S4x2048x3x6.Idx) (q : dot_S4x2048x2048_S3x6x2048_S4x2048x3x6_2_2_01_01_n_n.contr.Idx) : (dot_S4x2048x2048_S3x6x2048_S4x2048x3x6_2_2_01_01_n_n.lhsIdx i q 0).val = (i 0).val := by
  unfold DotDims.lhsIdx
  rw [dif_neg (show ¬(0 : Fin S4x2048x2048.rank) ∈ dot_S4x2048x2048_S3x6x2048_S4x2048x3x6_2_2_01_01_n_n.lhsBatch by decide), dif_pos (show (0 : Fin S4x2048x2048.rank) ∈ dot_S4x2048x2048_S3x6x2048_S4x2048x3x6_2_2_01_01_n_n.lhsNonContracting by decide)]
  rfl
theorem coefDot_l1 (i : S4x2048x3x6.Idx) (q : dot_S4x2048x2048_S3x6x2048_S4x2048x3x6_2_2_01_01_n_n.contr.Idx) : (dot_S4x2048x2048_S3x6x2048_S4x2048x3x6_2_2_01_01_n_n.lhsIdx i q 1).val = (i 1).val := by
  unfold DotDims.lhsIdx
  rw [dif_neg (show ¬(1 : Fin S4x2048x2048.rank) ∈ dot_S4x2048x2048_S3x6x2048_S4x2048x3x6_2_2_01_01_n_n.lhsBatch by decide), dif_pos (show (1 : Fin S4x2048x2048.rank) ∈ dot_S4x2048x2048_S3x6x2048_S4x2048x3x6_2_2_01_01_n_n.lhsNonContracting by decide)]
  rfl
theorem coefDot_r0 (i : S4x2048x3x6.Idx) (q : dot_S4x2048x2048_S3x6x2048_S4x2048x3x6_2_2_01_01_n_n.contr.Idx) : (dot_S4x2048x2048_S3x6x2048_S4x2048x3x6_2_2_01_01_n_n.rhsIdx i q 0).val = (i 2).val := by
  unfold DotDims.rhsIdx
  rw [dif_neg (show ¬(0 : Fin S3x6x2048.rank) ∈ dot_S4x2048x2048_S3x6x2048_S4x2048x3x6_2_2_01_01_n_n.rhsBatch by decide), dif_pos (show (0 : Fin S3x6x2048.rank) ∈ dot_S4x2048x2048_S3x6x2048_S4x2048x3x6_2_2_01_01_n_n.rhsNonContracting by decide)]
  rfl
theorem coefDot_r1 (i : S4x2048x3x6.Idx) (q : dot_S4x2048x2048_S3x6x2048_S4x2048x3x6_2_2_01_01_n_n.contr.Idx) : (dot_S4x2048x2048_S3x6x2048_S4x2048x3x6_2_2_01_01_n_n.rhsIdx i q 1).val = (i 3).val := by
  unfold DotDims.rhsIdx
  rw [dif_neg (show ¬(1 : Fin S3x6x2048.rank) ∈ dot_S4x2048x2048_S3x6x2048_S4x2048x3x6_2_2_01_01_n_n.rhsBatch by decide), dif_pos (show (1 : Fin S3x6x2048.rank) ∈ dot_S4x2048x2048_S3x6x2048_S4x2048x3x6_2_2_01_01_n_n.rhsNonContracting by decide)]
  rfl

/-- Row `(b, s)` of the left operand against `lad[l, c, ·]`. -/
theorem coefDot (x : FVec Ideal S4x2048x2048 .f32) (w : FVec Ideal S3x6x2048 .f32) (b : Fin 4) (s : Fin 2048) (l : Fin 3) (c : Fin 6) :
    Host.dotGeneral (F := Ideal) dot_S4x2048x2048_S3x6x2048_S4x2048x3x6_2_2_01_01_n_n none x w (ix4 b s l c) = ∑ k : Fin 2048, x (ix3 b s k) * w (ix3 l c k) := by
  simp only [Host.dotGeneral]
  rw [Ideal.dotGeneral_apply, ← Equiv.sum_comp (contrEquiv1 dot_S4x2048x2048_S3x6x2048_S4x2048x3x6_2_2_01_01_n_n 2048 rfl rfl).symm]
  refine Finset.sum_congr rfl fun k _ => ?_
  have hk := contrEquiv1_symm_val dot_S4x2048x2048_S3x6x2048_S4x2048x3x6_2_2_01_01_n_n 2048 rfl rfl k
  have el : dot_S4x2048x2048_S3x6x2048_S4x2048x3x6_2_2_01_01_n_n.lhsIdx (ix4 b s l c) ((contrEquiv1 dot_S4x2048x2048_S3x6x2048_S4x2048x3x6_2_2_01_01_n_n 2048 rfl rfl).symm k) = ix3 b s k := funext fun a => Fin.ext (by
    match a with
    | ⟨0, _⟩ => exact coefDot_l0 _ _
    | ⟨1, _⟩ => exact coefDot_l1 _ _
    | ⟨2, _⟩ => exact (dot_S4x2048x2048_S3x6x2048_S4x2048x3x6_2_2_01_01_n_n.lhsIdx_val_of_single rfl _ _).trans hk)
  have er : dot_S4x2048x2048_S3x6x2048_S4x2048x3x6_2_2_01_01_n_n.rhsIdx (ix4 b s l c) ((contrEquiv1 dot_S4x2048x2048_S3x6x2048_S4x2048x3x6_2_2_01_01_n_n 2048 rfl rfl).symm k) = ix3 l c k := funext fun a => Fin.ext (by
    match a with
    | ⟨0, _⟩ => exact coefDot_r0 _ _
    | ⟨1, _⟩ => exact coefDot_r1 _ _
    | ⟨2, _⟩ => exact (dot_S4x2048x2048_S3x6x2048_S4x2048x3x6_2_2_01_01_n_n.rhsIdx_val_of_single rfl _ _).trans hk)
  rw [el, er]

theorem mixDot_l0 (i : S4x2048x2048.Idx) (q : dot_S4x2048x3_S2048x3_S4x2048x2048_2_1_01_0_n_n.contr.Idx) : (dot_S4x2048x3_S2048x3_S4x2048x2048_2_1_01_0_n_n.lhsIdx i q 0).val = (i 0).val := by
  unfold DotDims.lhsIdx
  rw [dif_neg (show ¬(0 : Fin S4x2048x3.rank) ∈ dot_S4x2048x3_S2048x3_S4x2048x2048_2_1_01_0_n_n.lhsBatch by decide), dif_pos (show (0 : Fin S4x2048x3.rank) ∈ dot_S4x2048x3_S2048x3_S4x2048x2048_2_1_01_0_n_n.lhsNonContracting by decide)]
  rfl
theorem mixDot_l1 (i : S4x2048x2048.Idx) (q : dot_S4x2048x3_S2048x3_S4x2048x2048_2_1_01_0_n_n.contr.Idx) : (dot_S4x2048x3_S2048x3_S4x2048x2048_2_1_01_0_n_n.lhsIdx i q 1).val = (i 1).val := by
  unfold DotDims.lhsIdx
  rw [dif_neg (show ¬(1 : Fin S4x2048x3.rank) ∈ dot_S4x2048x3_S2048x3_S4x2048x2048_2_1_01_0_n_n.lhsBatch by decide), dif_pos (show (1 : Fin S4x2048x3.rank) ∈ dot_S4x2048x3_S2048x3_S4x2048x2048_2_1_01_0_n_n.lhsNonContracting by decide)]
  rfl
theorem mixDot_r0 (i : S4x2048x2048.Idx) (q : dot_S4x2048x3_S2048x3_S4x2048x2048_2_1_01_0_n_n.contr.Idx) : (dot_S4x2048x3_S2048x3_S4x2048x2048_2_1_01_0_n_n.rhsIdx i q 0).val = (i 2).val := by
  unfold DotDims.rhsIdx
  rw [dif_neg (show ¬(0 : Fin S2048x3.rank) ∈ dot_S4x2048x3_S2048x3_S4x2048x2048_2_1_01_0_n_n.rhsBatch by decide), dif_pos (show (0 : Fin S2048x3.rank) ∈ dot_S4x2048x3_S2048x3_S4x2048x2048_2_1_01_0_n_n.rhsNonContracting by decide)]
  rfl

/-- The three ladder values of row `(b, s)` against row `o` of `V`. -/
theorem mixDot (x : FVec Ideal S4x2048x3 .f32) (w : FVec Ideal S2048x3 .f32) (b : Fin 4) (s o : Fin 2048) :
    Host.dotGeneral (F := Ideal) dot_S4x2048x3_S2048x3_S4x2048x2048_2_1_01_0_n_n none x w (ix3 b s o) = ∑ k : Fin 3, x (ix3 b s k) * w (ix2 o k) := by
  simp only [Host.dotGeneral]
  rw [Ideal.dotGeneral_apply, ← Equiv.sum_comp (contrEquiv1 dot_S4x2048x3_S2048x3_S4x2048x2048_2_1_01_0_n_n 3 rfl rfl).symm]
  refine Finset.sum_congr rfl fun k _ => ?_
  have hk := contrEquiv1_symm_val dot_S4x2048x3_S2048x3_S4x2048x2048_2_1_01_0_n_n 3 rfl rfl k
  have el : dot_S4x2048x3_S2048x3_S4x2048x2048_2_1_01_0_n_n.lhsIdx (ix3 b s o) ((contrEquiv1 dot_S4x2048x3_S2048x3_S4x2048x2048_2_1_01_0_n_n 3 rfl rfl).symm k) = ix3 b s k := funext fun a => Fin.ext (by
    match a with
    | ⟨0, _⟩ => exact mixDot_l0 _ _
    | ⟨1, _⟩ => exact mixDot_l1 _ _
    | ⟨2, _⟩ => exact (dot_S4x2048x3_S2048x3_S4x2048x2048_2_1_01_0_n_n.lhsIdx_val_of_single rfl _ _).trans hk)
  have er : dot_S4x2048x3_S2048x3_S4x2048x2048_2_1_01_0_n_n.rhsIdx (ix3 b s o) ((contrEquiv1 dot_S4x2048x3_S2048x3_S4x2048x2048_2_1_01_0_n_n 3 rfl rfl).symm k) = ix2 o k := funext fun a => Fin.ext (by
    match a with
    | ⟨0, _⟩ => exact mixDot_r0 _ _
    | ⟨1, _⟩ => exact (dot_S4x2048x3_S2048x3_S4x2048x2048_2_1_01_0_n_n.rhsIdx_val_of_single rfl _ _).trans hk)
  rw [el, er]

/-! ## Splats and slices at an index -/

/-- A splat reads its word everywhere. -/
theorem splat_at (w : BitVec 32) (i : S4x2048x3.Idx) : splat (F := Ideal) w i = Ideal.ofBits .f32 w := by
  unfold splat
  exact broadcastInDim_apply _ _ _ i ix0 (fun a => a.elim0)

theorem ones_at (i : S4x2048x2048.Idx) : ones (F := Ideal) i = one := by
  unfold ones
  exact broadcastInDim_apply _ _ _ i ix0 (fun a => a.elim0)

/-- Coefficient 0 of ladder `l` on row `(b, s)`. -/
theorem coef0_at (a : FVec Ideal S4x2048x3x6 .f32) (b : Fin 4) (s : Fin 2048) (l : Fin 3) :
    coef0 (F := Ideal) a (ix3 b s l) = a (ix4 b s l 0) := by
  unfold coef0
  have hb := b.isLt; have hs := s.isLt; have hl := l.isLt
  refine (shapeCast_apply _ _ (ix3 b s l) (ix4 b s l (0 : Fin 1)) (by
    rw [Shape.rowMajor_val_four, Shape.rowMajor_val_three]
    show ((b.val * 2048 + s.val) * 3 + l.val) * 1 + 0 = (b.val * 2048 + s.val) * 3 + l.val
    omega)).trans ?_
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => rfl)

/-- The other five coefficients sit one place further along. -/
theorem rest_at (a : FVec Ideal S4x2048x3x6 .f32) (b : Fin 4) (s : Fin 2048) (l : Fin 3) (j : Fin 5) :
    rest (F := Ideal) a (ix4 b s l j) = a (ix4 b s l ⟨1 + j.val, by have := j.isLt; omega⟩) := by
  unfold rest
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => rfl)

/-- The last of the five. -/
theorem restAt4_at (t : FVec Ideal S4x2048x3x5 .f32) (b : Fin 4) (s : Fin 2048) (l : Fin 3) :
    restAt4 (F := Ideal) t (ix3 b s l) = t (ix4 b s l 4) := by
  unfold restAt4
  have hb := b.isLt; have hs := s.isLt; have hl := l.isLt
  refine (shapeCast_apply _ _ (ix3 b s l) (ix4 b s l (0 : Fin 1)) (by
    rw [Shape.rowMajor_val_four, Shape.rowMajor_val_three]
    show ((b.val * 2048 + s.val) * 3 + l.val) * 1 + 0 = (b.val * 2048 + s.val) * 3 + l.val
    omega)).trans ?_
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => rfl)

/-- The fourth. -/
theorem restAt3_at (t : FVec Ideal S4x2048x3x5 .f32) (b : Fin 4) (s : Fin 2048) (l : Fin 3) :
    restAt3 (F := Ideal) t (ix3 b s l) = t (ix4 b s l 3) := by
  unfold restAt3
  have hb := b.isLt; have hs := s.isLt; have hl := l.isLt
  refine (shapeCast_apply _ _ (ix3 b s l) (ix4 b s l (0 : Fin 1)) (by
    rw [Shape.rowMajor_val_four, Shape.rowMajor_val_three]
    show ((b.val * 2048 + s.val) * 3 + l.val) * 1 + 0 = (b.val * 2048 + s.val) * 3 + l.val
    omega)).trans ?_
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => rfl)

/-- The third. -/
theorem restAt2_at (t : FVec Ideal S4x2048x3x5 .f32) (b : Fin 4) (s : Fin 2048) (l : Fin 3) :
    restAt2 (F := Ideal) t (ix3 b s l) = t (ix4 b s l 2) := by
  unfold restAt2
  have hb := b.isLt; have hs := s.isLt; have hl := l.isLt
  refine (shapeCast_apply _ _ (ix3 b s l) (ix4 b s l (0 : Fin 1)) (by
    rw [Shape.rowMajor_val_four, Shape.rowMajor_val_three]
    show ((b.val * 2048 + s.val) * 3 + l.val) * 1 + 0 = (b.val * 2048 + s.val) * 3 + l.val
    omega)).trans ?_
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => rfl)

/-- The second. -/
theorem restAt1_at (t : FVec Ideal S4x2048x3x5 .f32) (b : Fin 4) (s : Fin 2048) (l : Fin 3) :
    restAt1 (F := Ideal) t (ix3 b s l) = t (ix4 b s l 1) := by
  unfold restAt1
  have hb := b.isLt; have hs := s.isLt; have hl := l.isLt
  refine (shapeCast_apply _ _ (ix3 b s l) (ix4 b s l (0 : Fin 1)) (by
    rw [Shape.rowMajor_val_four, Shape.rowMajor_val_three]
    show ((b.val * 2048 + s.val) * 3 + l.val) * 1 + 0 = (b.val * 2048 + s.val) * 3 + l.val
    omega)).trans ?_
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => rfl)

/-- The first. -/
theorem restAt0_at (t : FVec Ideal S4x2048x3x5 .f32) (b : Fin 4) (s : Fin 2048) (l : Fin 3) :
    restAt0 (F := Ideal) t (ix3 b s l) = t (ix4 b s l 0) := by
  unfold restAt0
  have hb := b.isLt; have hs := s.isLt; have hl := l.isLt
  refine (shapeCast_apply _ _ (ix3 b s l) (ix4 b s l (0 : Fin 1)) (by
    rw [Shape.rowMajor_val_four, Shape.rowMajor_val_three]
    show ((b.val * 2048 + s.val) * 3 + l.val) * 1 + 0 = (b.val * 2048 + s.val) * 3 + l.val
    omega)).trans ?_
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => rfl)

/-! ## The pointwise stages -/

/-- The guard on arrays is the guard on each entry. -/
theorem guardArr_at (d : FVec Ideal S4x2048x3 .f32) (i : S4x2048x3.Idx) : guardArr (F := Ideal) d i = guard (d i) := by
  unfold guardArr guard
  simp only [select_apply, cmpf_apply, splat_at]
  rfl

/-- A rung on arrays is the rung on each entry. -/
theorem rungArr_at (a f : FVec Ideal S4x2048x3 .f32) (i : S4x2048x3.Idx) : rungArr (F := Ideal) a f i = rung (a i) (f i) := by
  unfold rungArr rung
  show Ideal.div (a i) (guardArr (F := Ideal) (addf (splat 0x3F800000#32) f) i) = _
  rw [guardArr_at, addf_apply, splat_at]

/-- The gated input at `(b, s, d)`. -/
theorem gatedArr_at (x : FVec Ideal S4x2048x2048 .f32) (gate : FVec Ideal S2048x2048 .f32) (b : Fin 4) (s d : Fin 2048) :
    gatedArr (F := Ideal) x gate (ix3 b s d) = gated (fun k => x (ix3 b s k)) (fun o k => gate (ix2 o k)) d := by
  unfold gatedArr gated sigma
  show Ideal.div (ones (F := Ideal) (ix3 b s d)) (ones (F := Ideal) (ix3 b s d)
      + Ideal.exp (-(Host.dotGeneral (F := Ideal) dot_S4x2048x2048_S2048x2048_S4x2048x2048_2_1_01_0_n_n none x gate (ix3 b s d)))) * x (ix3 b s d) = _
  rw [ones_at, headDot]

/-- Coefficient `c` of ladder `l` on row `(b, s)`. -/
theorem coefArr_at (x : FVec Ideal S4x2048x2048 .f32) (gate : FVec Ideal S2048x2048 .f32) (lad : FVec Ideal S3x6x2048 .f32)
    (b : Fin 4) (s : Fin 2048) (l : Fin 3) (c : Fin 6) :
    coefArr (F := Ideal) x gate lad (ix4 b s l c)
      = ∑ d : Fin 2048, gated (fun k => x (ix3 b s k)) (fun o k => gate (ix2 o k)) d * lad (ix3 l c d) := by
  unfold coefArr
  rw [coefDot]
  exact Finset.sum_congr rfl fun d _ => by rw [gatedArr_at]

/-- Ladder `l`'s value on row `(b, s)`: the continued fraction over its six coefficients. -/
theorem ladderArr_at (a : FVec Ideal S4x2048x3x6 .f32) (b : Fin 4) (s : Fin 2048) (l : Fin 3) :
    ladderArr (F := Ideal) a (ix3 b s l) = fraction fun c => a (ix4 b s l c) := by
  unfold ladderArr
  rw [addf_apply, rungArr_at, rungArr_at, rungArr_at, rungArr_at, rungArr_at, splat_at, coef0_at,
    restAt0_at, restAt1_at, restAt2_at, restAt3_at, restAt4_at, rest_at, rest_at, rest_at, rest_at, rest_at]
  rfl

/-! ## The result -/

/-- The reference's result is the ladder function of its arguments. -/
theorem value_eq_G (x : FVec Ideal S4x2048x2048 .f32) (U gate : FVec Ideal S2048x2048 .f32) (lad : FVec Ideal S3x6x2048 .f32)
    (V : FVec Ideal S2048x3 .f32) : value (F := Ideal) x U gate lad V = G x U gate lad V := by
  funext i
  obtain ⟨b, s, o, rfl⟩ : ∃ (b : Fin 4) (s o : Fin 2048), i = ix3 b s o := ⟨i 0, i 1, i 2, eq_ix3 i⟩
  unfold value
  rw [addf_apply, headDot, mixDot]
  simp only [ladderArr_at, coefArr_at]
  rfl

end Cert.Ladder.Reference

end
-- ==== Proof.lean ====
/-
  Kernel and reference compute one function.

  Per row `x` of the input both programs form the linear head `x · Uᵀ`, the gated row `σ(x · gateᵀ) ⊙ x`, its eighteen
  ladder coefficients, the three depth-5 continued fractions with pole-guarded denominators, and add the three ladder
  values, mixed by `V`, onto the head (`Cert.Ladder.G`). The kernel does it 256 rows at a time with the two big
  products fused into one and the three ladder terms added in turn; the reference does it on whole arrays with one
  contraction per einsum. On the extended reals the two differ only in how the final three-term sum is grouped, and
  addition is associative; nothing needs the inputs finite.

  The kernel side: the stored value at an index (Body), the arrays the region stages (Prefix), blocks to array (Blocks),
  the reshape after the region (KernelRun). The reference side: its run (RefRun) and its value at an index (RefIsLadder).
  The two word-level and idealized frames are the generated ones; the reference's frame is its run with the result
  dropped; the idealization rewrote nothing.
-/
import proofs.«170637_j68478958568093_2_alg».proof.Defs
import proofs.«170637_j68478958568093_2_alg».proof.Proof.Gen.Kernel
import proofs.«170637_j68478958568093_2_alg».proof.Proof.Gen.Kernel.Frame
import proofs.«170637_j68478958568093_2_alg».proof.Proof.Gen.KernelIdeal
import proofs.«170637_j68478958568093_2_alg».proof.Proof.Gen.KernelIdeal.Frame
import proofs.«170637_j68478958568093_2_alg».proof.Proof.Gen.ReferenceIdeal
import proofs.«170637_j68478958568093_2_alg».proof.Proof.Gen.Pre_finite_inputs
import proofs.«170637_j68478958568093_2_alg».proof.Proof.KernelRun
import proofs.«170637_j68478958568093_2_alg».proof.Proof.RefRun
import proofs.«170637_j68478958568093_2_alg».proof.Proof.RefIsLadder
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.Ladder.RefRun.run (F := Ideal) m ρ)

/-- From memories that agree on the five arguments, both programs end with the ladder function of them in the result. -/
theorem algebraic : Cert.algebraic_KernelIdeal_ReferenceIdeal := by
  intro m ρ m' ρ' _ hagree
  refine ⟨fun c => Cert.Ladder.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.Ladder.KernelRun.run m ρ, ?_⟩
  refine (θ_run Cert.ReferenceIdeal.defs _ _).mono (fun _ h c => ⟨(h c).1.trans ?_, (h c).2⟩)
    (Cert.Ladder.RefRun.run (F := Ideal) m' ρ')
  rw [Cert.Ladder.Reference.value_eq_G, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
